-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_radius" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3 : Shape := ⟨3, ![2, 4096, 3]⟩
abbrev S2 : Shape := ⟨1, ![2]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel

variable [Facts]

def fn {F : FTy → Type} [FloatOps F] (main_arg0 : FVec F S2x4096x3 .f32) (main_arg1 : IVec S2 32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  main_v3
-- ==== Kernel.lean ====
abbrev S2x4096x3 : Shape := ⟨3, ![2, 4096, 3]⟩
abbrev S2 : Shape := ⟨1, ![2]⟩
abbrev S4096 : Shape := ⟨1, ![4096]⟩
abbrev S1x4096 : Shape := ⟨2, ![1, 4096]⟩
abbrev S2x1 : Shape := ⟨2, ![2, 1]⟩
abbrev S2x4096 : Shape := ⟨2, ![2, 4096]⟩
abbrev S2x512x3 : Shape := ⟨3, ![2, 512, 3]⟩
abbrev S2x512 : Shape := ⟨2, ![2, 512]⟩
abbrev S2x512x1 : Shape := ⟨3, ![2, 512, 1]⟩
abbrev S2x1x512 : Shape := ⟨3, ![2, 1, 512]⟩
abbrev S2x512x512 : Shape := ⟨3, ![2, 512, 512]⟩

abbrev nBuf : Space → Nat
  | .hbm => 10
  | .vmem => 11
  | .smem => 0
  | _ => 0

abbrev bufTy : (tb : Table) → Fin (tcTables nBuf tb) → BufTy
  | .hbm, ⟨0, _⟩ => ⟨S2x4096x3, .f32⟩
  | .hbm, ⟨1, _⟩ => ⟨S2, .i32⟩
  | .hbm, ⟨2, _⟩ => ⟨S4096, .i32⟩
  | .hbm, ⟨3, _⟩ => ⟨S1x4096, .i32⟩
  | .hbm, ⟨4, _⟩ => ⟨S2x1, .i32⟩
  | .hbm, ⟨5, _⟩ => ⟨S2x4096, .i32⟩
  | .hbm, ⟨6, _⟩ => ⟨S2x4096, .i32⟩
  | .hbm, ⟨7, _⟩ => ⟨S2x4096, .i1⟩
  | .hbm, ⟨8, _⟩ => ⟨S2x4096, .f32⟩
  | .hbm, ⟨9, _⟩ => ⟨S2x4096, .f32⟩
  | .local _ .vmem, ⟨0, _⟩ => ⟨S2x512x3, .f32⟩
  | .local _ .vmem, ⟨1, _⟩ => ⟨S2x512x3, .f32⟩
  | .local _ .vmem, ⟨2, _⟩ => ⟨S2x512x3, .f32⟩
  | .local _ .vmem, ⟨3, _⟩ => ⟨S2x512x3, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512, .f32⟩
  | .local _ .vmem, ⟨8, _⟩ => ⟨S2x512, .f32⟩
  | .local _ .vmem, ⟨9, _⟩ => ⟨S2x512, .f32⟩
  | .local _ .vmem, ⟨10, _⟩ => ⟨S2x512, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v86 : BitVec 1 := Scalar.cmpi .eq arg1 c7_i32
  let v87 : BitVec 32 := Scalar.extui v86
  let c0_i32_28 : BitVec 32 := 0#32
  let v88 : BitVec 1 := Scalar.cmpi .ne v87 c0_i32_28
  v88

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S4096_S1x4096_1 : S4096.BroadcastsInDim S1x4096 (![1] : Fin 1 → Fin S1x4096.rank)
  bcast_S2_S2x1_0 : S2.BroadcastsInDim S2x1 (![0] : Fin 1 → Fin S2x1.rank)
  bcast_S1x4096_S2x4096_0_1 : S1x4096.BroadcastsInDim S2x4096 (![0, 1] : Fin 2 → Fin S2x4096.rank)
  bcast_S2x1_S2x4096_0_1 : S2x1.BroadcastsInDim S2x4096 (![0, 1] : Fin 2 → Fin S2x4096.rank)
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S2x512x3_S2x512x3_0_0_0 : ∀ a, (![0, 0, 0] : Fin 3 → Nat) a + S2x512x3.size a ≤ S2x512x3.size a
  h_S2x512x3 : 0 < S2x512x3.numel
  slices_S2x512x3_o0_0_0_S2x512x1 : S2x512x3.Slices ![0, 0, 0] S2x512x1
  slices_S2x512x3_o0_0_1_S2x512x1 : S2x512x3.Slices ![0, 0, 1] S2x512x1
  slices_S2x512x3_o0_0_2_S2x512x1 : S2x512x3.Slices ![0, 0, 2] S2x512x1
  shapeCasts_S2x512x1_S2x512 : S2x512x1.ShapeCasts S2x512
  shapeCasts_S2x512_S2x1x512 : S2x512.ShapeCasts S2x1x512
  broadcasts_S2x512x1_S2x512x512 : S2x512x1.Broadcasts S2x512x512
  broadcasts_S2x1x512_S2x512x512 : S2x1x512.Broadcasts S2x512x512
  natLt_1_32 : 1 < 32
  shapeCasts_S2x512_S2x512x1 : S2x512.ShapeCasts S2x512x1
  reduces_S2x512x512_S2x512 : S2x512x512.Reduces [2] S2x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x3.size a ≤ S2x4096x3.size a
  hwx0_0 : ∀ i : grid0.Coords, EltTy.bits .f32 = 32 ∨ (Rect.block (s := S2x4096x3) S2x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x3.size a ≤ S2x4096x3.size a
  hwx0_1 : ∀ i : grid0.Coords, EltTy.bits .f32 = 32 ∨ (Rect.block (s := S2x4096x3) S2x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x4096.size a
  hwx0_2 : ∀ i : grid0.Coords, EltTy.bits .f32 = 32 ∨ (Rect.block (s := S2x4096) S2x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512.size a ≤ S2x4096.size a
  hwx0_3 : ∀ i : grid0.Coords, EltTy.bits .f32 = 32 ∨ (Rect.block (s := S2x4096) S2x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512.size a ≤ S2x4096.size a
  hwx0_4 : ∀ i : grid0.Coords, EltTy.bits .f32 = 32 ∨ (Rect.block (s := S2x4096) S2x512.size (cc0_transform_4 i) (hinb0_4 i)).WholeWords (EltTy.packing .f32)

variable [Facts₀]

abbrev win0_0 : Pipeline.Window sig grid0 :=
  Pipeline.Window.ofSpec (Memref.whole main_arg0) S2x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x3 : Shape := ⟨3, ![2, 4096, 3]⟩
abbrev S2 : Shape := ⟨1, ![2]⟩
abbrev S2x4096x1x3 : Shape := ⟨4, ![2, 4096, 1, 3]⟩
abbrev S2x1x4096x3 : Shape := ⟨4, ![2, 1, 4096, 3]⟩
abbrev S2x4096x4096x3 : Shape := ⟨4, ![2, 4096, 4096, 3]⟩
abbrev S_ : Shape := ⟨0, ![]⟩
abbrev S2x4096x4096 : Shape := ⟨3, ![2, 4096, 4096]⟩
abbrev S4096 : Shape := ⟨1, ![4096]⟩
abbrev S1x4096 : Shape := ⟨2, ![1, 4096]⟩
abbrev S2x1 : Shape := ⟨2, ![2, 1]⟩
abbrev S2x4096 : Shape := ⟨2, ![2, 4096]⟩
abbrev S2x4096x1 : Shape := ⟨3, ![2, 4096, 1]⟩
abbrev S2x1x4096 : Shape := ⟨3, ![2, 1, 4096]⟩

abbrev nBuf : Space → Nat
  | .hbm => 79
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2, .i32⟩
  | .hbm, ⟨2, _⟩ => ⟨S2x4096x1x3, .f32⟩
  | .hbm, ⟨3, _⟩ => ⟨S2x1x4096x3, .f32⟩
  | .hbm, ⟨4, _⟩ => ⟨S2x4096x4096x3, .f32⟩
  | .hbm, ⟨5, _⟩ => ⟨S2x4096x4096x3, .f32⟩
  | .hbm, ⟨6, _⟩ => ⟨S2x4096x4096x3, .f32⟩
  | .hbm, ⟨7, _⟩ => ⟨S2x4096x4096x3, .f32⟩
  | .hbm, ⟨8, _⟩ => ⟨S_, .f32⟩
  | .hbm, ⟨9, _⟩ => ⟨S2x4096x4096, .f32⟩
  | .hbm, ⟨10, _⟩ => ⟨S_, .f32⟩
  | .hbm, ⟨11, _⟩ => ⟨S2x4096x4096, .f32⟩
  | .hbm, ⟨12, _⟩ => ⟨S2x4096x4096, .i1⟩
  | .hbm, ⟨13, _⟩ => ⟨S_, .f32⟩
  | .hbm, ⟨14, _⟩ => ⟨S_, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S_, .f32⟩
  | .hbm, ⟨19, _⟩ => ⟨S2x4096x4096, .f32⟩
  | .hbm, ⟨20, _⟩ => ⟨S2x4096x4096, .i1⟩
  | .hbm, ⟨21, _⟩ => ⟨S_, .f32⟩
  | .hbm, ⟨22, _⟩ => ⟨S_, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x4096x4096, .f32⟩
  | .hbm, ⟨27, _⟩ => ⟨S2x4096x4096, .f32⟩
  | .hbm, ⟨28, _⟩ => ⟨S_, .f32⟩
  | .hbm, ⟨29, _⟩ => ⟨S2x4096x4096, .f32⟩
  | .hbm, ⟨30, _⟩ => ⟨S2x4096x4096, .i1⟩
  | .hbm, ⟨31, _⟩ => ⟨S2x4096x4096, .f32⟩
  | .hbm, ⟨32, _⟩ => ⟨S_, .f32⟩
  | .hbm, ⟨33, _⟩ => ⟨S2x4096x4096, .f32⟩
  | .hbm, ⟨34, _⟩ => ⟨S2x4096x4096, .f32⟩
  | .hbm, ⟨35, _⟩ => ⟨S_, .f32⟩
  | .hbm, ⟨36, _⟩ => ⟨S2x4096x4096, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S2x4096x4096, .f32⟩
  | .hbm, ⟨42, _⟩ => ⟨S2x4096x4096, .f32⟩
  | .hbm, ⟨43, _⟩ => ⟨S2x4096x4096, .f32⟩
  | .hbm, ⟨44, _⟩ => ⟨S_, .f32⟩
  | .hbm, ⟨45, _⟩ => ⟨S2x4096x4096, .f32⟩
  | .hbm, ⟨46, _⟩ => ⟨S2x4096x4096, .f32⟩
  | .hbm, ⟨47, _⟩ => ⟨S2x4096x4096, .f32⟩
  | .hbm, ⟨48, _⟩ => ⟨S2x4096x4096, .f32⟩
  | .hbm, ⟨49, _⟩ => ⟨S_, .f32⟩
  | .hbm, ⟨50, _⟩ => ⟨S2x4096x4096, .f32⟩
  | .hbm, ⟨51, _⟩ => ⟨S2x4096x4096, .f32⟩
  | .hbm, ⟨52, _⟩ => ⟨S2x4096x4096, .f32⟩
  | .hbm, ⟨53, _⟩ => ⟨S_, .f32⟩
  | .hbm, ⟨54, _⟩ => ⟨S2x4096x4096, .f32⟩
  | .hbm, ⟨55, _⟩ => ⟨S2x4096x4096, .f32⟩
  | .hbm, ⟨56, _⟩ => ⟨S_, .f32⟩
  | .hbm, ⟨57, _⟩ => ⟨S2x4096x4096, .f32⟩
  | .hbm, ⟨58, _⟩ => ⟨S2x4096x4096, .i1⟩
  | .hbm, ⟨59, _⟩ => ⟨S2x4096x4096, .f32⟩
  | .hbm, ⟨60, _⟩ => ⟨S2x4096x4096, .f32⟩
  | .hbm, ⟨61, _⟩ => ⟨S4096, .i32⟩
  | .hbm, ⟨62, _⟩ => ⟨S1x4096, .i32⟩
  | .hbm, ⟨63, _⟩ => ⟨S2x1, .i32⟩
  | .hbm, ⟨64, _⟩ => ⟨S2x4096, .i32⟩
  | .hbm, ⟨65, _⟩ => ⟨S2x4096, .i32⟩
  | .hbm, ⟨66, _⟩ => ⟨S2x4096, .i1⟩
  | .hbm, ⟨67, _⟩ => ⟨S2x4096x1, .i1⟩
  | .hbm, ⟨68, _⟩ => ⟨S2x4096x1, .f32⟩
  | .hbm, ⟨69, _⟩ => ⟨S2x4096x4096, .f32⟩
  | .hbm, ⟨70, _⟩ => ⟨S2x4096x4096, .f32⟩
  | .hbm, ⟨71, _⟩ => ⟨S2x1x4096, .i1⟩
  | .hbm, ⟨72, _⟩ => ⟨S2x1x4096, .f32⟩
  | .hbm, ⟨73, _⟩ => ⟨S2x4096x4096, .f32⟩
  | .hbm, ⟨74, _⟩ => ⟨S2x4096x4096, .f32⟩
  | .hbm, ⟨75, _⟩ => ⟨S_, .f32⟩
  | .hbm, ⟨76, _⟩ => ⟨S2x4096, .f32⟩
  | .hbm, ⟨77, _⟩ => ⟨S2x4096, .f32⟩
  | .hbm, ⟨78, _⟩ => ⟨S2x4096, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  bcast_S2x4096x3_S2x4096x1x3_0_1_3 : S2x4096x3.BroadcastsInDim S2x4096x1x3 (![0, 1, 3] : Fin 3 → Fin S2x4096x1x3.rank)
  bcast_S2x4096x3_S2x1x4096x3_0_2_3 : S2x4096x3.BroadcastsInDim S2x1x4096x3 (![0, 2, 3] : Fin 3 → Fin S2x1x4096x3.rank)
  bcast_S2x4096x1x3_S2x4096x4096x3_0_1_2_3 : S2x4096x1x3.BroadcastsInDim S2x4096x4096x3 (![0, 1, 2, 3] : Fin 4 → Fin S2x4096x4096x3.rank)
  bcast_S2x1x4096x3_S2x4096x4096x3_0_1_2_3 : S2x1x4096x3.BroadcastsInDim S2x4096x4096x3 (![0, 1, 2, 3] : Fin 4 → Fin S2x4096x4096x3.rank)
  reducesTo_S2x4096x4096x3_S2x4096x4096_d3 : S2x4096x4096x3.ReducesTo [3] S2x4096x4096
  h_S_ : 0 < S_.numel
  bcast_S_S2x4096x4096 : S_.BroadcastsInDim S2x4096x4096 (![] : Fin 0 → Fin S2x4096x4096.rank)
  bcast_S4096_S1x4096_1 : S4096.BroadcastsInDim S1x4096 (![1] : Fin 1 → Fin S1x4096.rank)
  bcast_S2_S2x1_0 : S2.BroadcastsInDim S2x1 (![0] : Fin 1 → Fin S2x1.rank)
  bcast_S1x4096_S2x4096_0_1 : S1x4096.BroadcastsInDim S2x4096 (![0, 1] : Fin 2 → Fin S2x4096.rank)
  bcast_S2x1_S2x4096_0_1 : S2x1.BroadcastsInDim S2x4096 (![0, 1] : Fin 2 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  bcast_S2x4096_S2x1x4096_0_2 : S2x4096.BroadcastsInDim S2x1x4096 (![0, 2] : Fin 2 → Fin S2x1x4096.rank)
  bcast_S2x1x4096_S2x4096x4096_0_1_2 : S2x1x4096.BroadcastsInDim S2x4096x4096 (![0, 1, 2] : Fin 3 → Fin S2x4096x4096.rank)
  reducesTo_S2x4096x4096_S2x4096_d2 : S2x4096x4096.ReducesTo [2] S2x4096

variable [Facts₀]

class Facts : Prop extends Facts₀ where

variable [Facts]
-- ==== Proof.BRuns.lean ====
/-
  The pairwise-density kernel runs on an 8 × 8 grid of (query tile, key tile) points. This module fixes what the
  three kinds of point share: the arrays as the region finds them (the positions as launched, the validity mask as
  the host lines before the call compute it), the two branch conditions of the body in closed form over the grid —
  the accumulator is reset exactly at key tile 0 and the output is stored exactly at key tile 7 —, where the output
  window is idle, and the staging and scratch memrefs the body is called with.
-/
import proofs.«112487_j2559800508972_1_alg».proof.Proof.Gen.Kernel.Launch
import proofs.«112487_j2559800508972_1_alg».proof.Proof.Gen.Kernel.Skeleton
import proofs.«112487_j2559800508972_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the seven host lines that
    build the validity mask. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is those host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- "This is key tile 0": the accumulator is reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is key tile 7": the output block is stored. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Off key tile 7 the body stores nothing into the output window, and the pipeline does not write it back. -/
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem liveAt_4 : ∀ t : Fin cfg0.N, condLast (grid0.coords t) → cfg0.idle 4 (grid0.coords t) = false := by decide +kernel

/-! ## The memrefs the body is called with -/

abbrev VO : View sig .tc .vmem S2x512 .f32 := (Memref.whole cc0_stg4_0 : Memref sig .tc .vmem S2x512 .f32).view
abbrev ms_0 (t : Fin cfg0.N) : Memref sig .tc .vmem S2x512x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2x512x3 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2x512 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2x512 .f32 := win0_4.stage (cfg0.slots t 4)
abbrev hs_4 (t : Fin cfg0.N) : (ms_4 t).IsWhole := hstage0_4 ((cfg0.slots t 4).cast nbuf0_4)
/-- The accumulator: a whole scoped buffer of the kernel's own. -/
abbrev scM : Memref sig .tc .vmem S2x512 .f32 := Memref.whole cc0_scratch0
abbrev VS : View sig .tc .vmem S2x512 .f32 := scM.view

/-- The region's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.BRunA.lean ====
/-
  The body at a point of key tile 0 that is not key tile 7: the accumulator is first overwritten with zeros, then
  this tile's row sums are added to it; nothing is stored into the output block, which is handed back as found.
  What the accumulator ends with is found by running the body: the pieces its two stores leave.
-/
import proofs.«112487_j2559800508972_1_alg».proof.Proof.BRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : condFirst i) (hcL : ¬condLast i)
    (x0 : Vec F S2x512x3 .f32) (x1 : Vec F S2x512x3 .f32) (x2 : Vec F S2x512 .f32) (x3 : Vec F S2x512 .f32) :
    { LS : List (View.Piece (Elt F) S2x512 .f32) //
      ∀ (xi4 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi4 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.BRunB.lean ====
/-
  The body at a point that is neither key tile 0 nor key tile 7: this tile's row sums are added to what the
  accumulator held; the output block is handed back as found.
-/
import proofs.«112487_j2559800508972_1_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : ¬condLast i)
    (x0 : Vec F S2x512x3 .f32) (x1 : Vec F S2x512x3 .f32) (x2 : Vec F S2x512 .f32) (x3 : Vec F S2x512 .f32) (xs : Vec F S2x512 .f32) :
    { LS : List (View.Piece (Elt F) S2x512 .f32) //
      ∀ (xi4 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi4 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.BRunC.lean ====
/-
  The body at a point of key tile 7: this tile's row sums are added to what the accumulator held, and the
  accumulator, masked by the query tile's validity, is stored into the output block.
-/
import proofs.«112487_j2559800508972_1_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i)
    (x0 : Vec F S2x512x3 .f32) (x1 : Vec F S2x512x3 .f32) (x2 : Vec F S2x512 .f32) (x3 : Vec F S2x512 .f32) (xs : Vec F S2x512 .f32) :
    Σ' (L4 : List (View.Piece (Elt F) S2x512 .f32)), { LS : List (View.Piece (Elt F) S2x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.Hand

end
-- ==== Proof.BOuts.lean ====
/-
  What each kind of point leaves, and the accumulation point by point. After the point of key tile k of a query
  tile the accumulator holds the row sums of the pair weights over key tiles 0 … k; at key tile 7 the output block is
  that total masked by the query rows' validity.
-/
import proofs.«112487_j2559800508972_1_alg».proof.Proof.BRunC

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four blocks a point reads, at their vector types -/

/-- The query-side positions block at point `t`. -/
def blkQ (c : Dev nD) (t : Fin cfg0.N) : Vec F S2x512x3 .f32 := iblk m c 0 t
/-- The key-side positions block. -/
def blkK (c : Dev nD) (t : Fin cfg0.N) : Vec F S2x512x3 .f32 := iblk m c 1 t
/-- The query-side validity block. -/
def blkVq (c : Dev nD) (t : Fin cfg0.N) : Vec F S2x512 .f32 := iblk m c 2 t
/-- The key-side validity block. -/
def blkVk (c : Dev nD) (t : Fin cfg0.N) : Vec F S2x512 .f32 := iblk m c 3 t

/-! ## What each kind of point leaves -/

theorem scoverA (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : condFirst i) (hcL : ¬condLast i) (x0 : Vec F S2x512x3 .f32) (x1 : Vec F S2x512x3 .f32) (x2 : Vec F S2x512 .f32) (x3 : Vec F S2x512 .f32) (y : S2x512.Idx) :
    ∃ pc ∈ (kernelRunA c i arg2 harg2 arg3 harg3 arg4 harg4 arg5 harg5 arg6 harg6 arg7 harg7 hcF hcL x0 x1 x2 x3).1, y ∈ pc.1.set :=
  View.cover_of_tiledL (kernelRunA c i arg2 harg2 arg3 harg3 arg4 harg4 arg5 harg5 arg6 harg6 arg7 harg7 hcF hcL x0 x1 x2 x3).1 S2x512.size (by sl_kernel_rfl) y

/-- The accumulator after a point of key tile 0. -/
def soutA (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : condFirst i) (hcL : ¬condLast i) (x0 : Vec F S2x512x3 .f32) (x1 : Vec F S2x512x3 .f32) (x2 : Vec F S2x512 .f32) (x3 : Vec F S2x512 .f32) : Vec F S2x512 .f32 :=
  VS.read (Elt F) (VS.writes (Elt F) VS.junk (kernelRunA c i arg2 harg2 arg3 harg3 arg4 harg4 arg5 harg5 arg6 harg6 arg7 harg7 hcF hcL x0 x1 x2 x3).1)

theorem scoverB (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : ¬condLast i) (x0 : Vec F S2x512x3 .f32) (x1 : Vec F S2x512x3 .f32) (x2 : Vec F S2x512 .f32) (x3 : Vec F S2x512 .f32) (xs : Vec F S2x512 .f32) (y : S2x512.Idx) :
    ∃ pc ∈ (kernelRunB c i arg2 harg2 arg3 harg3 arg4 harg4 arg5 harg5 arg6 harg6 arg7 harg7 hcF hcL x0 x1 x2 x3 xs).1, y ∈ pc.1.set :=
  View.cover_of_tiledL (kernelRunB c i arg2 harg2 arg3 harg3 arg4 harg4 arg5 harg5 arg6 harg6 arg7 harg7 hcF hcL x0 x1 x2 x3 xs).1 S2x512.size (by sl_kernel_rfl) y

/-- The accumulator after a point of a middle key tile, from what it held. -/
def soutB (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : ¬condLast i) (x0 : Vec F S2x512x3 .f32) (x1 : Vec F S2x512x3 .f32) (x2 : Vec F S2x512 .f32) (x3 : Vec F S2x512 .f32) (xs : Vec F S2x512 .f32) : Vec F S2x512 .f32 :=
  VS.read (Elt F) (VS.writes (Elt F) VS.junk (kernelRunB c i arg2 harg2 arg3 harg3 arg4 harg4 arg5 harg5 arg6 harg6 arg7 harg7 hcF hcL x0 x1 x2 x3 xs).1)

theorem coverC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) (y : S2x512.Idx) :
    ∃ pc ∈ (kernelRunC c i arg2 harg2 arg3 harg3 arg4 harg4 arg5 harg5 arg6 harg6 arg7 harg7 hcF hcL x0 x1 x2 x3 xs).1, y ∈ pc.1.set :=
  View.cover_of_tiledL (kernelRunC c i arg2 harg2 arg3 harg3 arg4 harg4 arg5 harg5 arg6 harg6 arg7 harg7 hcF hcL x0 x1 x2 x3 xs).1 S2x512.size (by sl_kernel_rfl) y

theorem scoverC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) (y : S2x512.Idx) :
    ∃ pc ∈ (kernelRunC c i arg2 harg2 arg3 harg3 arg4 harg4 arg5 harg5 arg6 harg6 arg7 harg7 hcF hcL x0 x1 x2 x3 xs).2.1, y ∈ pc.1.set :=
  View.cover_of_tiledL (kernelRunC c i arg2 harg2 arg3 harg3 arg4 harg4 arg5 harg5 arg6 harg6 arg7 harg7 hcF hcL x0 x1 x2 x3 xs).2.1 S2x512.size (by sl_kernel_rfl) y

/-- The output block after a point of key tile 7. -/
def outC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) : Vec F S2x512 .f32 :=
  VO.read (Elt F) (VO.writes (Elt F) VO.junk (kernelRunC c i arg2 harg2 arg3 harg3 arg4 harg4 arg5 harg5 arg6 harg6 arg7 harg7 hcF hcL x0 x1 x2 x3 xs).1)

/-- The accumulator after a point of key tile 7. -/
def soutC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) : Vec F S2x512 .f32 :=
  VS.read (Elt F) (VS.writes (Elt F) VS.junk (kernelRunC c i arg2 harg2 arg3 harg3 arg4 harg4 arg5 harg5 arg6 harg6 arg7 harg7 hcF hcL x0 x1 x2 x3 xs).2.1)

/-! ## Point by point -/

/-- What the output block (first component; consulted at key tile 7 only, elsewhere a copy of the second) and the
    accumulator (second component) hold after the body at position `n`. -/
def outsAt (c : Dev nD) : (n : ℕ) → n < cfg0.N → Vec F S2x512 .f32 × Vec F S2x512 .f32
  | 0, hn =>
    (soutA c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcondFirst ⟨0, hn⟩).mpr (Nat.zero_mod _)) (fun h => (fun h => by (try dsimp only at h); omega) ((hcondLast ⟨0, hn⟩).mp h)) (blkQ m c ⟨0, hn⟩) (blkK m c ⟨0, hn⟩) (blkVq m c ⟨0, hn⟩) (blkVk m c ⟨0, hn⟩),
     soutA c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcondFirst ⟨0, hn⟩).mpr (Nat.zero_mod _)) (fun h => (fun h => by (try dsimp only at h); omega) ((hcondLast ⟨0, hn⟩).mp h)) (blkQ m c ⟨0, hn⟩) (blkK m c ⟨0, hn⟩) (blkVq m c ⟨0, hn⟩) (blkVk m c ⟨0, hn⟩))
  | n + 1, hn =>
    if h0 : (n + 1) % 8 = 0 then
      (soutA c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcondFirst ⟨n + 1, hn⟩).mpr h0) (fun h => (fun h => by (try dsimp only at h); omega) ((hcondLast ⟨n + 1, hn⟩).mp h)) (blkQ m c ⟨n + 1, hn⟩) (blkK m c ⟨n + 1, hn⟩) (blkVq m c ⟨n + 1, hn⟩) (blkVk m c ⟨n + 1, hn⟩),
       soutA c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcondFirst ⟨n + 1, hn⟩).mpr h0) (fun h => (fun h => by (try dsimp only at h); omega) ((hcondLast ⟨n + 1, hn⟩).mp h)) (blkQ m c ⟨n + 1, hn⟩) (blkK m c ⟨n + 1, hn⟩) (blkVq m c ⟨n + 1, hn⟩) (blkVk m c ⟨n + 1, hn⟩))
    else if h7 : (n + 1) % 8 = 7 then
      (outC c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h7) (blkQ m c ⟨n + 1, hn⟩) (blkK m c ⟨n + 1, hn⟩) (blkVq m c ⟨n + 1, hn⟩) (blkVk m c ⟨n + 1, hn⟩) (outsAt c n (Nat.lt_of_succ_lt hn)).2,
       soutC c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h7) (blkQ m c ⟨n + 1, hn⟩) (blkK m c ⟨n + 1, hn⟩) (blkVq m c ⟨n + 1, hn⟩) (blkVk m c ⟨n + 1, hn⟩) (outsAt c n (Nat.lt_of_succ_lt hn)).2)
    else
      (soutB c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h7 ((hcondLast ⟨n + 1, hn⟩).mp h)) (blkQ m c ⟨n + 1, hn⟩) (blkK m c ⟨n + 1, hn⟩) (blkVq m c ⟨n + 1, hn⟩) (blkVk m c ⟨n + 1, hn⟩) (outsAt c n (Nat.lt_of_succ_lt hn)).2,
       soutB c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h7 ((hcondLast ⟨n + 1, hn⟩).mp h)) (blkQ m c ⟨n + 1, hn⟩) (blkK m c ⟨n + 1, hn⟩) (blkVq m c ⟨n + 1, hn⟩) (blkVk m c ⟨n + 1, hn⟩) (outsAt c n (Nat.lt_of_succ_lt hn)).2)

theorem outsAt_A (c : Dev nD) (t : Fin cfg0.N) (h0 : t.val % 8 = 0) (h7 : ¬t.val % 8 = 7) :
    outsAt m c t.val t.isLt = (soutA c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h7 ((hcondLast t).mp h)) (blkQ m c t) (blkK m c t) (blkVq m c t) (blkVk m c t),
      soutA c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h7 ((hcondLast t).mp h)) (blkQ m c t) (blkK m c t) (blkVq m c t) (blkVk m c t)) := by
  obtain ⟨n, hn⟩ := t
  cases n with
  | zero => exact rfl
  | succ n => exact (dif_pos h0).trans rfl

theorem outsAt_B (c : Dev nD) (t : Fin cfg0.N) (h0 : ¬t.val % 8 = 0) (h7 : ¬t.val % 8 = 7) :
    outsAt m c t.val t.isLt = (soutB c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h7 ((hcondLast t).mp h)) (blkQ m c t) (blkK m c t) (blkVq m c t) (blkVk m c t) (outsAt m c (t.val - 1) (Nat.lt_of_le_of_lt (Nat.sub_le _ _) t.isLt)).2,
      soutB c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h7 ((hcondLast t).mp h)) (blkQ m c t) (blkK m c t) (blkVq m c t) (blkVk m c t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem outsAt_C (c : Dev nD) (t : Fin cfg0.N) (h0 : ¬t.val % 8 = 0) (h7 : t.val % 8 = 7) :
    outsAt m c t.val t.isLt = (outC c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h7) (blkQ m c t) (blkK m c t) (blkVq m c t) (blkVk m c t) (outsAt m c (t.val - 1) (Nat.lt_of_le_of_lt (Nat.sub_le _ _) t.isLt)).2,
      soutC c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h7) (blkQ m c t) (blkK m c t) (blkVq m c t) (blkVk m c t) (outsAt m c (t.val - 1) (Nat.lt_of_le_of_lt (Nat.sub_le _ _) t.isLt)).2) := by
  obtain ⟨n, hn⟩ := t
  cases n with
  | zero => exact (by exfalso; (try dsimp only at h7); omega)
  | succ n => exact (dif_neg h0).trans ((dif_pos h7).trans rfl)

/-! ## The invariant between points -/

/-- Before the first point the accumulator holds anything; before point `n + 1` it holds what point `n` left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

end Cert.Kernel.Hand

end
-- ==== Proof.BData.lean ====
/-
  The proof data of the call: the arrays as the region finds them; each input window's buffer at its block after
  every point (the body only reads them); the output's at what the accumulation gives; the accumulator carried in the
  invariant. The positions and the validity mask are each split half and half between their two windows.
-/
import proofs.«112487_j2559800508972_1_alg».proof.Proof.BOuts

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]

/-- Each input window's current buffer holds its block at every point, fetched there or not: where it is not
    fetched the block index has not moved since the last fetch. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at point `t`, the inputs' buffers already at their blocks, -/
def bodyPre (c : Dev nD) (t : Fin cfg0.N) : sProp 𝕄 :=
  iprop((dats m 0 c).Φ t.castSucc ∗ (dats m 0 c).owesAt () t.castSucc
    ∗ owns (c : Thread nD τ) (ms_0 t) fullShare (blkQ m c t)
    ∗ owns (c : Thread nD τ) (ms_1 t) fullShare (blkK m c t)
    ∗ owns (c : Thread nD τ) (ms_2 t) fullShare (blkVq m c t)
    ∗ owns (c : Thread nD τ) (ms_3 t) fullShare (blkVk m c t)
    ∗ (∃ d, owns (c : Thread nD τ) (ms_4 t) fullShare ((dats m 0 c).before 4 t d)))

/-- and what it returns off key tile 7 (the output block handed back as found), -/
def bodyPostIdle (c : Dev nD) (t : Fin cfg0.N) : sProp 𝕄 :=
  iprop(owns (c : Thread nD τ) scM fullShare ((outsAt m c t.val t.isLt).2) ∗ (dats m 0 c).owesAt () t.castSucc
    ∗ owns (c : Thread nD τ) (ms_0 t) fullShare (blkQ m c t)
    ∗ owns (c : Thread nD τ) (ms_1 t) fullShare (blkK m c t)
    ∗ owns (c : Thread nD τ) (ms_2 t) fullShare (blkVq m c t)
    ∗ owns (c : Thread nD τ) (ms_3 t) fullShare (blkVk m c t)
    ∗ (∃ d, owns (c : Thread nD τ) (ms_4 t) fullShare ((dats m 0 c).before 4 t d)))

/-- and at key tile 7 (the output block stored). -/
def bodyPostLast (c : Dev nD) (t : Fin cfg0.N) : sProp 𝕄 :=
  iprop(owns (c : Thread nD τ) scM fullShare ((outsAt m c t.val t.isLt).2) ∗ (dats m 0 c).owesAt () t.castSucc
    ∗ owns (c : Thread nD τ) (ms_0 t) fullShare (blkQ m c t)
    ∗ owns (c : Thread nD τ) (ms_1 t) fullShare (blkK m c t)
    ∗ owns (c : Thread nD τ) (ms_2 t) fullShare (blkVq m c t)
    ∗ owns (c : Thread nD τ) (ms_3 t) fullShare (blkVk m c t)
    ∗ owns (c : Thread nD τ) (ms_4 t) fullShare ((outsAt m c t.val t.isLt).1))

end Cert.Kernel.Hand

end
-- ==== Proof.BBodyA.lean ====
/-
  The body obligation at a point of key tile 0: whatever the accumulator held, it ends at this tile's row sums.
-/
import proofs.«112487_j2559800508972_1_alg».proof.Proof.BData

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_A (c : Dev nD) (t : Fin cfg0.N) (h0 : t.val % 8 = 0) (h7 : ¬t.val % 8 = 7) :
    bodyPre m c t ⊢ wp frame (wpE (defs₀ (F := F)) Variants.none c none) Set.univ (bodyAt0 t) (fun _ => bodyPostIdle m c t) := by
  unfold bodyPre bodyPostIdle bodyAt0
  rw [outsAt_A m c t h0 h7]
  unfold soutA; (try dsimp only)
  have hpre : (dats m 0 c).Φ t.castSucc ⊢ (iprop(∃ d, owns (c : Thread nD τ) scM fullShare d) : sProp 𝕄) := by
    rw [PhiS_castSucc m c t]
    by_cases hz : t.val = 0
    · rw [PhiS_zero m c _ _ hz]
    · rw [PhiS_pos m c _ _ hz]; iintro HS; iexists _; iexact HS
  iintro ⟨HΦ, Ho, H0, H1, H2, H3, ⟨%d4, H4⟩⟩
  ihave HS := hpre $$ HΦ
  iapply ((kernelRunA c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h7 ((hcondLast t).mp h)) (blkQ m c t) (blkK m c t) (blkVq m c t) (blkVk m c t)).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS]
  · unfold owns; iexists _; isplitr
    swap; · iexact HS
    ipureintro; exact View.read_writes_of_cover _ _ _ _ _ (scoverA c _ (ms_0 t) (hs_0 t) (ms_1 t) (hs_1 t) (ms_2 t) (hs_2 t) (ms_3 t) (hs_3 t) (ms_4 t) (hs_4 t) scM _ _ _ _ _ _ _)
  isplitl [Ho]; · iexact Ho
  isplitl [H0]; · iexact H0
  isplitl [H1]; · iexact H1
  isplitl [H2]; · iexact H2
  isplitl [H3]; · iexact H3
  iexists _; iexact H4

end Cert.Kernel.Hand

end
-- ==== Proof.BBodyB.lean ====
/-
  The body obligation at a point of a middle key tile: the accumulator goes from what the point before left to that
  plus this tile's row sums.
-/
import proofs.«112487_j2559800508972_1_alg».proof.Proof.BData

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_B (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPostIdle m c t) := by
  have hz : t.val ≠ 0 := fun h => h0 (by rw [h])
  unfold bodyPre bodyPostIdle bodyAt0
  rw [outsAt_B m c t h0 h7]
  unfold soutB; (try dsimp only)
  rw [PhiS_castSucc m c t, PhiS_pos m c _ _ hz]
  iintro ⟨HS, Ho, H0, H1, H2, H3, ⟨%d4, H4⟩⟩
  iapply ((kernelRunB c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h7 ((hcondLast t).mp h)) (blkQ m c t) (blkK m c t) (blkVq m c t) (blkVk m c t) _).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS]
  · unfold owns; iexists _; isplitr
    swap; · iexact HS
    ipureintro; exact View.read_writes_of_cover _ _ _ _ _ (scoverB c _ (ms_0 t) (hs_0 t) (ms_1 t) (hs_1 t) (ms_2 t) (hs_2 t) (ms_3 t) (hs_3 t) (ms_4 t) (hs_4 t) scM _ _ _ _ _ _ _ _)
  isplitl [Ho]; · iexact Ho
  isplitl [H0]; · iexact H0
  isplitl [H1]; · iexact H1
  isplitl [H2]; · iexact H2
  isplitl [H3]; · iexact H3
  iexists _; iexact H4

end Cert.Kernel.Hand

end
-- ==== Proof.BBodyC.lean ====
/-
  The body obligation at a point of key tile 7: the accumulator takes this tile's row sums too, and the output block
  is stored from it.
-/
import proofs.«112487_j2559800508972_1_alg».proof.Proof.BData

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_C (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPostLast m c t) := by
  have hz : t.val ≠ 0 := fun h => h0 (by rw [h])
  unfold bodyPre bodyPostLast bodyAt0
  rw [outsAt_C m c t h0 h7]
  unfold outC soutC; (try dsimp only)
  rw [PhiS_castSucc m c t, PhiS_pos m c _ _ hz]
  iintro ⟨HS, Ho, H0, H1, H2, H3, ⟨%d4, H4⟩⟩
  iapply ((kernelRunC c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h7) (blkQ m c t) (blkK m c t) (blkVq m c t) (blkVk m c t) _).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS]
  · unfold owns; iexists _; isplitr
    swap; · iexact HS
    ipureintro; exact View.read_writes_of_cover _ _ _ _ _ (scoverC c _ (ms_0 t) (hs_0 t) (ms_1 t) (hs_1 t) (ms_2 t) (hs_2 t) (ms_3 t) (hs_3 t) (ms_4 t) (hs_4 t) scM _ _ _ _ _ _ _ _)
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverC c _ (ms_0 t) (hs_0 t) (ms_1 t) (hs_1 t) (ms_2 t) (hs_2 t) (ms_3 t) (hs_3 t) (ms_4 t) (hs_4 t) scM _ _ _ _ _ _ _ _)

end Cert.Kernel.Hand

end
-- ==== Proof.BObl.lean ====
/-
  The body obligation at every point, from the three kinds of point; and the invariant's two ends: the launch hands
  the region the accumulator at anything, and after the last point its contents are forgotten.
-/
import proofs.«112487_j2559800508972_1_alg».proof.Proof.BBodyA
import proofs.«112487_j2559800508972_1_alg».proof.Proof.BBodyB
import proofs.«112487_j2559800508972_1_alg».proof.Proof.BBodyC

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the rule hands the body is what the three kinds of point start from: each input buffer at its block. -/
theorem pre_entails (c : Dev nD) (t : Fin cfg0.N) :
    iprop((dats m 0 c).Φ t.castSucc ∗ (dats m 0 c).owesAt () t.castSucc
      ∗ (∃ d, owns (c : Thread nD τ) (ms_0 t) fullShare ((dats m 0 c).before 0 t d))
      ∗ (∃ d, owns (c : Thread nD τ) (ms_1 t) fullShare ((dats m 0 c).before 1 t d))
      ∗ (∃ d, owns (c : Thread nD τ) (ms_2 t) fullShare ((dats m 0 c).before 2 t d))
      ∗ (∃ d, owns (c : Thread nD τ) (ms_3 t) fullShare ((dats m 0 c).before 3 t d))
      ∗ (∃ d, owns (c : Thread nD τ) (ms_4 t) fullShare ((dats m 0 c).before 4 t d)))
      ⊢ bodyPre m c t := by
  unfold bodyPre
  simp only [before_0, before_1, before_2, before_3]
  iintro ⟨HΦ, Ho, ⟨%d0, H0⟩, ⟨%d1, H1⟩, ⟨%d2, H2⟩, ⟨%d3, H3⟩, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- Off key tile 7 the output window is idle and not written back: handing its block back as found is what the
    rule asks. -/
theorem post_idle (c : Dev nD) (t : Fin cfg0.N) (h7 : ¬t.val % 8 = 7) :
    bodyPostIdle m c t ⊢ (iprop((dats m 0 c).Φ t.succ ∗ (dats m 0 c).owesAt () t.succ
      ∗ (dats m 0 c).leavesExact 0 t ∗ (dats m 0 c).leavesExact 1 t ∗ (dats m 0 c).leavesExact 2 t
      ∗ (dats m 0 c).leavesExact 3 t ∗ (dats m 0 c).leavesExact 4 t) : sProp 𝕄) := by
  unfold bodyPostIdle
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t (fun h => h7 ((hcondLast t).mp h))) (noFlush_4 t (fun h => h7 ((hcondLast t).mp h)))]
  iintro ⟨HS, Ho, H0, H1, H2, H3, H4⟩
  isplitl [HS]; · iexact HS
  isplitl [Ho]; · iexact Ho
  isplitl [H0]; · iexact H0
  isplitl [H1]; · iexact H1
  isplitl [H2]; · iexact H2
  isplitl [H3]; · iexact H3
  iexact H4

/-- At key tile 7 the output window is live: its block is what the point stored. -/
theorem post_last (c : Dev nD) (t : Fin cfg0.N) (h7 : t.val % 8 = 7) :
    bodyPostLast m c t ⊢ (iprop((dats m 0 c).Φ t.succ ∗ (dats m 0 c).owesAt () t.succ
      ∗ (dats m 0 c).leavesExact 0 t ∗ (dats m 0 c).leavesExact 1 t ∗ (dats m 0 c).leavesExact 2 t
      ∗ (dats m 0 c).leavesExact 3 t ∗ (dats m 0 c).leavesExact 4 t) : sProp 𝕄) := by
  unfold bodyPostLast
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t ((hcondLast t).mpr h7)], after_4]
  iintro ⟨HS, Ho, H0, H1, H2, H3, H4⟩
  isplitl [HS]; · iexact HS
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  refine (pre_entails m c t).trans ?_
  by_cases h0 : t.val % 8 = 0
  · have h7 : ¬t.val % 8 = 7 := by omega
    exact (sound_A m c t h0 h7).trans (wp_mono _ _ _ fun _ => post_idle m c t h7)
  · by_cases h7 : t.val % 8 = 7
    · exact (sound_C m c t h0 h7).trans (wp_mono _ _ _ fun _ => post_last m c t h7)
    · exact (sound_B m c t h0 h7).trans (wp_mono _ _ _ fun _ => post_idle m c t h7)

/-- The launch hands the region the accumulator at anything: the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest0_eq]
  simp only [scM, owns_whole]; try exact Idealize.SL.BI.Entails.refl _

/-- After the last point the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_eq]
  simp only [scM, owns_whole]
  iintro HS; iexists _; iexact HS

end Cert.Kernel.Hand

end
-- ==== Proof.BLaunch.lean ====
/-
  The whole call. The positions array is read by the query-side and the key-side window, and so is the validity mask:
  the full holding of each array splits into two halves, one per window (both only read). With that, the launch rule
  for windows that share arrays gives the run: every weakly fair execution terminates without a fault, every array
  of the call ends at what the proof data compute, and every buffer the call bypasses is as the region found it.
-/
import proofs.«112487_j2559800508972_1_alg».proof.Proof.BObl

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed: the positions, the validity mask, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v6) ↦{fullShare} V m c main_v6)
          ∗ (((c : Thread nD τ).loc main_v7) ↦{fullShare} V m c main_v7)) := by
  unfold Pipeline.arrBufs
  exact bigSep_eq_bigSepL_of_eq [main_arg0, main_v6, main_v7] (by decide) (by decide) _

theorem set0 : (cfg0.win 0).arr.view.set = Finset.univ := (arr_whole0 0).set_eq_univ
theorem set1 : (cfg0.win 1).arr.view.set = Finset.univ := (arr_whole0 1).set_eq_univ
theorem set2 : (cfg0.win 2).arr.view.set = Finset.univ := (arr_whole0 2).set_eq_univ
theorem set3 : (cfg0.win 3).arr.view.set = Finset.univ := (arr_whole0 3).set_eq_univ
theorem set4 : (cfg0.win 4).arr.view.set = Finset.univ := (arr_whole0 4).set_eq_univ

/-- At entry each array holds the region-entry contents. -/
theorem arrAt_zero (c : Dev nD) (w : Fin cfg0.W) : (dats m 0 c).arrAt w 0 = V m c (Pipeline.arrRef spec0 w) := A_eq m c w

theorem share_0 (c : Dev nD) : (dats m 0 c).share 0 = fullShare.left := by
  unfold Dat.share; rw [show (cfg0.win 0).isOut = false from rfl, if_neg Bool.false_ne_true]; dsimp only [dats]
theorem share_1 (c : Dev nD) : (dats m 0 c).share 1 = fullShare.right := by
  unfold Dat.share; rw [show (cfg0.win 1).isOut = false from rfl, if_neg Bool.false_ne_true]; dsimp only [dats]
theorem share_2 (c : Dev nD) : (dats m 0 c).share 2 = fullShare.left := by
  unfold Dat.share; rw [show (cfg0.win 2).isOut = false from rfl, if_neg Bool.false_ne_true]; dsimp only [dats]
theorem share_3 (c : Dev nD) : (dats m 0 c).share 3 = fullShare.right := by
  unfold Dat.share; rw [show (cfg0.win 3).isOut = false from rfl, if_neg Bool.false_ne_true]; dsimp only [dats]
theorem share_4 (c : Dev nD) : (dats m 0 c).share 4 = fullShare := by
  unfold Dat.share; rw [show (cfg0.win 4).isOut = true from rfl, if_pos rfl]

/-- Each window's holding at entry, by name. -/
theorem hold0 (c : Dev nD) :
    ((cfg0.win 0).arr.view.loc (c.tc : Thread nD τ) ↦[(cfg0.win 0).arr.view.set]{(dats m 0 c).share 0} (dats m 0 c).arrAt 0 0 : sProp 𝕄)
      = (((c : Thread nD τ).loc main_arg0) ↦{fullShare.left} V m c main_arg0) := by
  rw [set0, share_0, arrAt_zero]
theorem hold1 (c : Dev nD) :
    ((cfg0.win 1).arr.view.loc (c.tc : Thread nD τ) ↦[(cfg0.win 1).arr.view.set]{(dats m 0 c).share 1} (dats m 0 c).arrAt 1 0 : sProp 𝕄)
      = (((c : Thread nD τ).loc main_arg0) ↦{fullShare.right} V m c main_arg0) := by
  rw [set1, share_1, arrAt_zero]
theorem hold2 (c : Dev nD) :
    ((cfg0.win 2).arr.view.loc (c.tc : Thread nD τ) ↦[(cfg0.win 2).arr.view.set]{(dats m 0 c).share 2} (dats m 0 c).arrAt 2 0 : sProp 𝕄)
      = (((c : Thread nD τ).loc main_v6) ↦{fullShare.left} V m c main_v6) := by
  rw [set2, share_2, arrAt_zero]
theorem hold3 (c : Dev nD) :
    ((cfg0.win 3).arr.view.loc (c.tc : Thread nD τ) ↦[(cfg0.win 3).arr.view.set]{(dats m 0 c).share 3} (dats m 0 c).arrAt 3 0 : sProp 𝕄)
      = (((c : Thread nD τ).loc main_v6) ↦{fullShare.right} V m c main_v6) := by
  rw [set3, share_3, arrAt_zero]
theorem hold4 (c : Dev nD) :
    ((cfg0.win 4).arr.view.loc (c.tc : Thread nD τ) ↦[(cfg0.win 4).arr.view.set]{(dats m 0 c).share 4} (dats m 0 c).arrAt 4 0 : sProp 𝕄)
      = (((c : Thread nD τ).loc main_v7) ↦{fullShare} V m c main_v7) := by
  rw [set4, share_4, arrAt_zero]

/-- The five windows' holdings at entry, listed: each of the two shared arrays by halves, the result outright. -/
theorem arrays_eq5 (c : Dev nD) :
    ((dats m 0 c).arrays ((dats m 0 c).arrAt · 0) : sProp 𝕄)
      = iprop((((c : Thread nD τ).loc main_arg0) ↦{fullShare.left} V m c main_arg0) ∗ (((c : Thread nD τ).loc main_arg0) ↦{fullShare.right} V m c main_arg0)
          ∗ (((c : Thread nD τ).loc main_v6) ↦{fullShare.left} V m c main_v6) ∗ (((c : Thread nD τ).loc main_v6) ↦{fullShare.right} V m c main_v6)
          ∗ (((c : Thread nD τ).loc main_v7) ↦{fullShare} V m c main_v7)) := by
  unfold Dat.arrays
  rw [bigSep_W0]
  beta_reduce
  rw [hold0, hold1, hold2, hold3, hold4]

/-- The buffers behind the windows' arrays, each whole at the region-entry contents, are the five windows' holdings. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq5]
  refine (BIClass.sep_mono (pointsTo_share (PosShare.mem_left_op_right fullShare)).1
    (BIClass.sep_mono (pointsTo_share (PosShare.mem_left_op_right fullShare)).1 .rfl)).trans ?_
  iintro ⟨⟨Ha0, Ha1⟩, ⟨Hv0, Hv1⟩, Ho⟩
  isplitl [Ha0]; · iexact Ha0
  isplitl [Ha1]; · iexact Ha1
  isplitl [Hv0]; · iexact Hv0
  isplitl [Hv1]; · iexact Hv1
  iexact Ho

set_option backward.isDefEq.respectTransparency.types false in
/-- The run of @main: termination without a fault, every array of the call at `arrAt … N`, every bypassed unscoped
    buffer at its region-entry contents. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      iintro ⟨-, Hr⟩
      iapply (hin m c); iexact Hr)
    (hout := fun c => by
      iintro H
      isplitr; · iempintro
      iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Hand

end
-- ==== Proof.BClaim.lean ====
/-
  What the run says of the arrays the claims name. The seven host lines before the call write only their own results,
  so the region finds both arguments as launched; the positions are an input of the call and end as the region found
  them; the point counts bypass the call and are read back unchanged; the result array ends at what the write-backs
  leave.
-/
import proofs.«112487_j2559800508972_1_alg».proof.Proof.BLaunch

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The run with the three arrays the claims speak of: the result at what the write-backs leave, both arguments
    unchanged. -/
theorem run_named : θ_run defs (onTc (τ := τ) (main (F := F))) ⟨m, fun _ => 0, ρ⟩ (fun r => ∀ c : Dev nD,
      r.2.mem ((c.tc : Thread nD τ).loc main_v7) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 4,
      ((h c).1 0).trans (((dats m 0 c).arrAt_in 0 rfl _).trans ((A_eq m c 0).trans (V_main_arg0 m c))),
      ((h c).2 main_arg1 (Pipeline.mem_restRefs_of main_arg1 rfl (by decide))).trans (V_main_arg1 m c)⟩) (run_main m ρ)

/-- The frame: termination without a fault, both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Hand

end
-- ==== Proof.KRuns.lean ====
/-
  The pairwise-density kernel runs on an 8 × 8 grid of (query tile, key tile) points. This module fixes what the
  three kinds of point share: the arrays as the region finds them (the positions as launched, the validity mask as
  the host lines before the call compute it), the two branch conditions of the body in closed form over the grid —
  the accumulator is reset exactly at key tile 0 and the output is stored exactly at key tile 7 —, where the output
  window is idle, and the staging and scratch memrefs the body is called with.
-/
import proofs.«112487_j2559800508972_1_alg».proof.Proof.Gen.KernelIdeal.Launch
import proofs.«112487_j2559800508972_1_alg».proof.Proof.Gen.KernelIdeal.Skeleton
import proofs.«112487_j2559800508972_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the seven host lines that
    build the validity mask. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is those host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- "This is key tile 0": the accumulator is reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is key tile 7": the output block is stored. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Off key tile 7 the body stores nothing into the output window, and the pipeline does not write it back. -/
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem liveAt_4 : ∀ t : Fin cfg0.N, condLast (grid0.coords t) → cfg0.idle 4 (grid0.coords t) = false := by decide +kernel

/-! ## The memrefs the body is called with -/

abbrev VO : View sig .tc .vmem S2x512 .f32 := (Memref.whole cc0_stg4_0 : Memref sig .tc .vmem S2x512 .f32).view
abbrev ms_0 (t : Fin cfg0.N) : Memref sig .tc .vmem S2x512x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2x512x3 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2x512 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2x512 .f32 := win0_4.stage (cfg0.slots t 4)
abbrev hs_4 (t : Fin cfg0.N) : (ms_4 t).IsWhole := hstage0_4 ((cfg0.slots t 4).cast nbuf0_4)
/-- The accumulator: a whole scoped buffer of the kernel's own. -/
abbrev scM : Memref sig .tc .vmem S2x512 .f32 := Memref.whole cc0_scratch0
abbrev VS : View sig .tc .vmem S2x512 .f32 := scM.view

/-- The region's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KRunA.lean ====
/-
  The body at a point of key tile 0 that is not key tile 7: the accumulator is first overwritten with zeros, then
  this tile's row sums are added to it; nothing is stored into the output block, which is handed back as found.
  What the accumulator ends with is found by running the body: the pieces its two stores leave.
-/
import proofs.«112487_j2559800508972_1_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : condFirst i) (hcL : ¬condLast i)
    (x0 : Vec F S2x512x3 .f32) (x1 : Vec F S2x512x3 .f32) (x2 : Vec F S2x512 .f32) (x3 : Vec F S2x512 .f32) :
    { LS : List (View.Piece (Elt F) S2x512 .f32) //
      ∀ (xi4 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi4 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KRunB.lean ====
/-
  The body at a point that is neither key tile 0 nor key tile 7: this tile's row sums are added to what the
  accumulator held; the output block is handed back as found.
-/
import proofs.«112487_j2559800508972_1_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : ¬condLast i)
    (x0 : Vec F S2x512x3 .f32) (x1 : Vec F S2x512x3 .f32) (x2 : Vec F S2x512 .f32) (x3 : Vec F S2x512 .f32) (xs : Vec F S2x512 .f32) :
    { LS : List (View.Piece (Elt F) S2x512 .f32) //
      ∀ (xi4 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi4 E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KRunC.lean ====
/-
  The body at a point of key tile 7: this tile's row sums are added to what the accumulator held, and the
  accumulator, masked by the query tile's validity, is stored into the output block.
-/
import proofs.«112487_j2559800508972_1_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i)
    (x0 : Vec F S2x512x3 .f32) (x1 : Vec F S2x512x3 .f32) (x2 : Vec F S2x512 .f32) (x3 : Vec F S2x512 .f32) (xs : Vec F S2x512 .f32) :
    Σ' (L4 : List (View.Piece (Elt F) S2x512 .f32)), { LS : List (View.Piece (Elt F) S2x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.Hand

end
-- ==== Proof.KOuts.lean ====
/-
  What each kind of point leaves, and the accumulation point by point. After the point of key tile k of a query
  tile the accumulator holds the row sums of the pair weights over key tiles 0 … k; at key tile 7 the output block is
  that total masked by the query rows' validity.
-/
import proofs.«112487_j2559800508972_1_alg».proof.Proof.KRunC

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The four blocks a point reads, at their vector types -/

/-- The query-side positions block at point `t`. -/
def blkQ (c : Dev nD) (t : Fin cfg0.N) : Vec F S2x512x3 .f32 := iblk m c 0 t
/-- The key-side positions block. -/
def blkK (c : Dev nD) (t : Fin cfg0.N) : Vec F S2x512x3 .f32 := iblk m c 1 t
/-- The query-side validity block. -/
def blkVq (c : Dev nD) (t : Fin cfg0.N) : Vec F S2x512 .f32 := iblk m c 2 t
/-- The key-side validity block. -/
def blkVk (c : Dev nD) (t : Fin cfg0.N) : Vec F S2x512 .f32 := iblk m c 3 t

/-! ## What each kind of point leaves -/

theorem scoverA (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : condFirst i) (hcL : ¬condLast i) (x0 : Vec F S2x512x3 .f32) (x1 : Vec F S2x512x3 .f32) (x2 : Vec F S2x512 .f32) (x3 : Vec F S2x512 .f32) (y : S2x512.Idx) :
    ∃ pc ∈ (kernelRunA c i arg2 harg2 arg3 harg3 arg4 harg4 arg5 harg5 arg6 harg6 arg7 harg7 hcF hcL x0 x1 x2 x3).1, y ∈ pc.1.set :=
  View.cover_of_tiledL (kernelRunA c i arg2 harg2 arg3 harg3 arg4 harg4 arg5 harg5 arg6 harg6 arg7 harg7 hcF hcL x0 x1 x2 x3).1 S2x512.size (by sl_kernel_rfl) y

/-- The accumulator after a point of key tile 0. -/
def soutA (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : condFirst i) (hcL : ¬condLast i) (x0 : Vec F S2x512x3 .f32) (x1 : Vec F S2x512x3 .f32) (x2 : Vec F S2x512 .f32) (x3 : Vec F S2x512 .f32) : Vec F S2x512 .f32 :=
  VS.read (Elt F) (VS.writes (Elt F) VS.junk (kernelRunA c i arg2 harg2 arg3 harg3 arg4 harg4 arg5 harg5 arg6 harg6 arg7 harg7 hcF hcL x0 x1 x2 x3).1)

theorem scoverB (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : ¬condLast i) (x0 : Vec F S2x512x3 .f32) (x1 : Vec F S2x512x3 .f32) (x2 : Vec F S2x512 .f32) (x3 : Vec F S2x512 .f32) (xs : Vec F S2x512 .f32) (y : S2x512.Idx) :
    ∃ pc ∈ (kernelRunB c i arg2 harg2 arg3 harg3 arg4 harg4 arg5 harg5 arg6 harg6 arg7 harg7 hcF hcL x0 x1 x2 x3 xs).1, y ∈ pc.1.set :=
  View.cover_of_tiledL (kernelRunB c i arg2 harg2 arg3 harg3 arg4 harg4 arg5 harg5 arg6 harg6 arg7 harg7 hcF hcL x0 x1 x2 x3 xs).1 S2x512.size (by sl_kernel_rfl) y

/-- The accumulator after a point of a middle key tile, from what it held. -/
def soutB (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : ¬condLast i) (x0 : Vec F S2x512x3 .f32) (x1 : Vec F S2x512x3 .f32) (x2 : Vec F S2x512 .f32) (x3 : Vec F S2x512 .f32) (xs : Vec F S2x512 .f32) : Vec F S2x512 .f32 :=
  VS.read (Elt F) (VS.writes (Elt F) VS.junk (kernelRunB c i arg2 harg2 arg3 harg3 arg4 harg4 arg5 harg5 arg6 harg6 arg7 harg7 hcF hcL x0 x1 x2 x3 xs).1)

theorem coverC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) (y : S2x512.Idx) :
    ∃ pc ∈ (kernelRunC c i arg2 harg2 arg3 harg3 arg4 harg4 arg5 harg5 arg6 harg6 arg7 harg7 hcF hcL x0 x1 x2 x3 xs).1, y ∈ pc.1.set :=
  View.cover_of_tiledL (kernelRunC c i arg2 harg2 arg3 harg3 arg4 harg4 arg5 harg5 arg6 harg6 arg7 harg7 hcF hcL x0 x1 x2 x3 xs).1 S2x512.size (by sl_kernel_rfl) y

theorem scoverC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) (y : S2x512.Idx) :
    ∃ pc ∈ (kernelRunC c i arg2 harg2 arg3 harg3 arg4 harg4 arg5 harg5 arg6 harg6 arg7 harg7 hcF hcL x0 x1 x2 x3 xs).2.1, y ∈ pc.1.set :=
  View.cover_of_tiledL (kernelRunC c i arg2 harg2 arg3 harg3 arg4 harg4 arg5 harg5 arg6 harg6 arg7 harg7 hcF hcL x0 x1 x2 x3 xs).2.1 S2x512.size (by sl_kernel_rfl) y

/-- The output block after a point of key tile 7. -/
def outC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) : Vec F S2x512 .f32 :=
  VO.read (Elt F) (VO.writes (Elt F) VO.junk (kernelRunC c i arg2 harg2 arg3 harg3 arg4 harg4 arg5 harg5 arg6 harg6 arg7 harg7 hcF hcL x0 x1 x2 x3 xs).1)

/-- The accumulator after a point of key tile 7. -/
def soutC (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) : Vec F S2x512 .f32 :=
  VS.read (Elt F) (VS.writes (Elt F) VS.junk (kernelRunC c i arg2 harg2 arg3 harg3 arg4 harg4 arg5 harg5 arg6 harg6 arg7 harg7 hcF hcL x0 x1 x2 x3 xs).2.1)

/-! ## Point by point -/

/-- What the output block (first component; consulted at key tile 7 only, elsewhere a copy of the second) and the
    accumulator (second component) hold after the body at position `n`. -/
def outsAt (c : Dev nD) : (n : ℕ) → n < cfg0.N → Vec F S2x512 .f32 × Vec F S2x512 .f32
  | 0, hn =>
    (soutA c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcondFirst ⟨0, hn⟩).mpr (Nat.zero_mod _)) (fun h => (fun h => by (try dsimp only at h); omega) ((hcondLast ⟨0, hn⟩).mp h)) (blkQ m c ⟨0, hn⟩) (blkK m c ⟨0, hn⟩) (blkVq m c ⟨0, hn⟩) (blkVk m c ⟨0, hn⟩),
     soutA c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcondFirst ⟨0, hn⟩).mpr (Nat.zero_mod _)) (fun h => (fun h => by (try dsimp only at h); omega) ((hcondLast ⟨0, hn⟩).mp h)) (blkQ m c ⟨0, hn⟩) (blkK m c ⟨0, hn⟩) (blkVq m c ⟨0, hn⟩) (blkVk m c ⟨0, hn⟩))
  | n + 1, hn =>
    if h0 : (n + 1) % 8 = 0 then
      (soutA c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcondFirst ⟨n + 1, hn⟩).mpr h0) (fun h => (fun h => by (try dsimp only at h); omega) ((hcondLast ⟨n + 1, hn⟩).mp h)) (blkQ m c ⟨n + 1, hn⟩) (blkK m c ⟨n + 1, hn⟩) (blkVq m c ⟨n + 1, hn⟩) (blkVk m c ⟨n + 1, hn⟩),
       soutA c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcondFirst ⟨n + 1, hn⟩).mpr h0) (fun h => (fun h => by (try dsimp only at h); omega) ((hcondLast ⟨n + 1, hn⟩).mp h)) (blkQ m c ⟨n + 1, hn⟩) (blkK m c ⟨n + 1, hn⟩) (blkVq m c ⟨n + 1, hn⟩) (blkVk m c ⟨n + 1, hn⟩))
    else if h7 : (n + 1) % 8 = 7 then
      (outC c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h7) (blkQ m c ⟨n + 1, hn⟩) (blkK m c ⟨n + 1, hn⟩) (blkVq m c ⟨n + 1, hn⟩) (blkVk m c ⟨n + 1, hn⟩) (outsAt c n (Nat.lt_of_succ_lt hn)).2,
       soutC c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h7) (blkQ m c ⟨n + 1, hn⟩) (blkK m c ⟨n + 1, hn⟩) (blkVq m c ⟨n + 1, hn⟩) (blkVk m c ⟨n + 1, hn⟩) (outsAt c n (Nat.lt_of_succ_lt hn)).2)
    else
      (soutB c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h7 ((hcondLast ⟨n + 1, hn⟩).mp h)) (blkQ m c ⟨n + 1, hn⟩) (blkK m c ⟨n + 1, hn⟩) (blkVq m c ⟨n + 1, hn⟩) (blkVk m c ⟨n + 1, hn⟩) (outsAt c n (Nat.lt_of_succ_lt hn)).2,
       soutB c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h7 ((hcondLast ⟨n + 1, hn⟩).mp h)) (blkQ m c ⟨n + 1, hn⟩) (blkK m c ⟨n + 1, hn⟩) (blkVq m c ⟨n + 1, hn⟩) (blkVk m c ⟨n + 1, hn⟩) (outsAt c n (Nat.lt_of_succ_lt hn)).2)

theorem outsAt_A (c : Dev nD) (t : Fin cfg0.N) (h0 : t.val % 8 = 0) (h7 : ¬t.val % 8 = 7) :
    outsAt m c t.val t.isLt = (soutA c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h7 ((hcondLast t).mp h)) (blkQ m c t) (blkK m c t) (blkVq m c t) (blkVk m c t),
      soutA c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h7 ((hcondLast t).mp h)) (blkQ m c t) (blkK m c t) (blkVq m c t) (blkVk m c t)) := by
  obtain ⟨n, hn⟩ := t
  cases n with
  | zero => exact rfl
  | succ n => exact (dif_pos h0).trans rfl

theorem outsAt_B (c : Dev nD) (t : Fin cfg0.N) (h0 : ¬t.val % 8 = 0) (h7 : ¬t.val % 8 = 7) :
    outsAt m c t.val t.isLt = (soutB c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h7 ((hcondLast t).mp h)) (blkQ m c t) (blkK m c t) (blkVq m c t) (blkVk m c t) (outsAt m c (t.val - 1) (Nat.lt_of_le_of_lt (Nat.sub_le _ _) t.isLt)).2,
      soutB c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h7 ((hcondLast t).mp h)) (blkQ m c t) (blkK m c t) (blkVq m c t) (blkVk m c t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

theorem outsAt_C (c : Dev nD) (t : Fin cfg0.N) (h0 : ¬t.val % 8 = 0) (h7 : t.val % 8 = 7) :
    outsAt m c t.val t.isLt = (outC c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h7) (blkQ m c t) (blkK m c t) (blkVq m c t) (blkVk m c t) (outsAt m c (t.val - 1) (Nat.lt_of_le_of_lt (Nat.sub_le _ _) t.isLt)).2,
      soutC c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h7) (blkQ m c t) (blkK m c t) (blkVq m c t) (blkVk m c t) (outsAt m c (t.val - 1) (Nat.lt_of_le_of_lt (Nat.sub_le _ _) t.isLt)).2) := by
  obtain ⟨n, hn⟩ := t
  cases n with
  | zero => exact (by exfalso; (try dsimp only at h7); omega)
  | succ n => exact (dif_neg h0).trans ((dif_pos h7).trans rfl)

/-! ## The invariant between points -/

/-- Before the first point the accumulator holds anything; before point `n + 1` it holds what point `n` left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

end Cert.KernelIdeal.Hand

end
-- ==== Proof.KPay.lean ====
/-
  What the three kinds of point leave, as the body's arithmetic: the accumulator ends at the body's accumulate
  term of the four blocks and of what it held (the zero block at key tile 0), and at key tile 7 the output block is
  the store's term of the query-side validity block and that accumulator.
-/
import proofs.«112487_j2559800508972_1_alg».proof.Proof.KOuts
import Idealize.ShloMosaic.Lib.Pipeline.Value

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle key tile: the accumulator takes this tile's row sums on top of what it held. -/
theorem soutB_eq (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : ¬condLast i) (x0 : Vec F S2x512x3 .f32) (x1 : Vec F S2x512x3 .f32) (x2 : Vec F S2x512 .f32) (x3 : Vec F S2x512 .f32) (xs : Vec F S2x512 .f32) :
    soutB c i arg2 harg2 arg3 harg3 arg4 harg4 arg5 harg5 arg6 harg6 arg7 harg7 hcF hcL x0 x1 x2 x3 xs = k0_pay6 (k0_pay3 x0 x1) (k0_pay4 (F := F)) x2 x3 xs := by
  unfold soutB
  rw [View.read_writes_eq_canon _ _ _ (scoverB c i arg2 harg2 arg3 harg3 arg4 harg4 arg5 harg5 arg6 harg6 arg7 harg7 hcF hcL x0 x1 x2 x3 xs)]
  unfold kernelRunB
  dsimp only
  sl_unfold_words
  rw [View.canon_unit_zero hz2]
  simp only [View.readAt_eq_ld, harg2.read_unread, harg3.read_unread, harg4.read_unread, harg5.read_unread, harg7.read_unread,
    View.ld_unit_zero (S := S2x512x3) hz3, View.ld_unit_zero (S := S2x512) hz2]

/-- Key tile 0: the same on top of the zero block the reset stored. -/
theorem soutA_eq (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : condFirst i) (hcL : ¬condLast i) (x0 : Vec F S2x512x3 .f32) (x1 : Vec F S2x512x3 .f32) (x2 : Vec F S2x512 .f32) (x3 : Vec F S2x512 .f32) :
    soutA c i arg2 harg2 arg3 harg3 arg4 harg4 arg5 harg5 arg6 harg6 arg7 harg7 hcF hcL x0 x1 x2 x3 = k0_pay6 (k0_pay3 x0 x1) (k0_pay4 (F := F)) x2 x3 (k0_pay2 (F := F)) := by
  unfold soutA
  rw [View.read_writes_eq_canon _ _ _ (scoverA c i arg2 harg2 arg3 harg3 arg4 harg4 arg5 harg5 arg6 harg6 arg7 harg7 hcF hcL x0 x1 x2 x3)]
  unfold kernelRunA
  dsimp only
  sl_unfold_words
  rw [View.canon_cons_unit_zero (S := S2x512) hz2]
  simp only [View.readAt_eq_ld, harg2.read_unread, harg3.read_unread, harg4.read_unread, harg5.read_unread,
    View.ld_unit_zero (S := S2x512x3) hz3, View.ld_unit_zero (S := S2x512) hz2, View.readCov_unit_zero (S := S2x512) _ hz2]

/-- Key tile 7: the accumulator as at a middle tile, -/
theorem soutC_eq (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) :
    soutC c i arg2 harg2 arg3 harg3 arg4 harg4 arg5 harg5 arg6 harg6 arg7 harg7 hcF hcL x0 x1 x2 x3 xs = k0_pay6 (k0_pay3 x0 x1) (k0_pay4 (F := F)) x2 x3 xs := by
  unfold soutC
  rw [View.read_writes_eq_canon _ _ _ (scoverC c i arg2 harg2 arg3 harg3 arg4 harg4 arg5 harg5 arg6 harg6 arg7 harg7 hcF hcL x0 x1 x2 x3 xs)]
  unfold kernelRunC
  dsimp only
  sl_unfold_words
  rw [View.canon_unit_zero hz2]
  simp only [View.readAt_eq_ld, harg2.read_unread, harg3.read_unread, harg4.read_unread, harg5.read_unread, harg7.read_unread,
    View.ld_unit_zero (S := S2x512x3) hz3, View.ld_unit_zero (S := S2x512) hz2]

/-- and the output block stored from it and the query-side validity block. -/
theorem outC_eq (c : Dev nD) (i : grid0.Coords) (arg2 : Memref sig .tc .vmem S2x512x3 .f32) (harg2 : arg2.IsWhole) (arg3 : Memref sig .tc .vmem S2x512x3 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (hcF : ¬condFirst i) (hcL : condLast i) (x0 : Vec F S2x512x3 .f32) (x1 : Vec F S2x512x3 .f32) (x2 : Vec F S2x512 .f32) (x3 : Vec F S2x512 .f32) (xs : Vec F S2x512 .f32) :
    outC c i arg2 harg2 arg3 harg3 arg4 harg4 arg5 harg5 arg6 harg6 arg7 harg7 hcF hcL x0 x1 x2 x3 xs = k0_pay1 (k0_pay5 x2) (k0_pay6 (k0_pay3 x0 x1) (k0_pay4 (F := F)) x2 x3 xs) := by
  unfold outC
  rw [View.read_writes_eq_canon _ _ _ (coverC c i arg2 harg2 arg3 harg3 arg4 harg4 arg5 harg5 arg6 harg6 arg7 harg7 hcF hcL x0 x1 x2 x3 xs)]
  unfold kernelRunC
  dsimp only
  sl_unfold_words
  rw [View.canon_unit_zero hz2]
  simp only [View.readAt_eq_ld, harg2.read_unread, harg3.read_unread, harg4.read_unread, harg5.read_unread, harg7.read_unread,
    View.ld_unit_zero (S := S2x512x3) hz3, View.ld_unit_zero (S := S2x512) hz2, View.readCov_unit_zero (S := S2x512) _ hz2]

end Cert.KernelIdeal.Hand

end
-- ==== Proof.KLay.lean ====
/-
  The body's layout operations read at an index, at this kernel's literal shapes: a coordinate column sliced out of a
  positions block; a trailing unit axis dropped or added; a row of key values laid along the last axis; either kind
  of operand broadcast to the full (cloud, query row, key column) box; and the sum along the key axis.
-/
import proofs.«112487_j2559800508972_1_alg».proof.KernelIdeal
import proofs.«112487_j2559800508972_1_alg».proof.Proof.Gen.KernelIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Idealize.ShloMosaic Idealize.ShloMosaic.ValueIdx

variable {α : Type}

/-- Coordinate column `k` of a positions block, at row `r` of cloud `b`. -/
theorem slice_col0 (x : S2x512x3.Idx → α) (h : S2x512x3.Slices ![0, 0, 0] S2x512x1) (b : Fin 2) (r : Fin 512) :
    extractStridedSlice S2x512x1 ![0, 0, 0] x h (ix3 b r (0 : Fin 1)) = x (ix3 b r (0 : Fin 3)) :=
  extractStridedSlice_apply _ x h _ _ (fun a => match a with
    | ⟨0, _⟩ => by show b.val = 0 + b.val; omega
    | ⟨1, _⟩ => by show r.val = 0 + r.val; omega
    | ⟨2, _⟩ => by show (0 : Nat) = 0 + 0; omega)
theorem slice_col1 (x : S2x512x3.Idx → α) (h : S2x512x3.Slices ![0, 0, 1] S2x512x1) (b : Fin 2) (r : Fin 512) :
    extractStridedSlice S2x512x1 ![0, 0, 1] x h (ix3 b r (0 : Fin 1)) = x (ix3 b r (1 : Fin 3)) :=
  extractStridedSlice_apply _ x h _ _ (fun a => match a with
    | ⟨0, _⟩ => by show b.val = 0 + b.val; omega
    | ⟨1, _⟩ => by show r.val = 0 + r.val; omega
    | ⟨2, _⟩ => by show (1 : Nat) = 1 + 0; omega)
theorem slice_col2 (x : S2x512x3.Idx → α) (h : S2x512x3.Slices ![0, 0, 2] S2x512x1) (b : Fin 2) (r : Fin 512) :
    extractStridedSlice S2x512x1 ![0, 0, 2] x h (ix3 b r (0 : Fin 1)) = x (ix3 b r (2 : Fin 3)) :=
  extractStridedSlice_apply _ x h _ _ (fun a => match a with
    | ⟨0, _⟩ => by show b.val = 0 + b.val; omega
    | ⟨1, _⟩ => by show r.val = 0 + r.val; omega
    | ⟨2, _⟩ => by show (2 : Nat) = 2 + 0; omega)

/-- A trailing unit axis dropped. -/
theorem cast_drop_last (v : S2x512x1.Idx → α) (h : S2x512x1.ShapeCasts S2x512) (b : Fin 2) (r : Fin 512) :
    shapeCast S2x512 v h (ix2 b r) = v (ix3 b r (0 : Fin 1)) :=
  shapeCast_apply v h _ _ (by rw [Shape.rowMajor_val_three, Shape.rowMajor_val_two]; show (b.val * 512 + r.val) * 1 + 0 = b.val * 512 + r.val; omega)

/-- A trailing unit axis added. -/
theorem cast_add_last (v : S2x512.Idx → α) (h : S2x512.ShapeCasts S2x512x1) (b : Fin 2) (r : Fin 512) :
    shapeCast S2x512x1 v h (ix3 b r (0 : Fin 1)) = v (ix2 b r) :=
  shapeCast_apply v h _ _ (by rw [Shape.rowMajor_val_three, Shape.rowMajor_val_two]; show b.val * 512 + r.val = (b.val * 512 + r.val) * 1 + 0; omega)

/-- A unit axis put in the middle: a row of per-key values laid along the last axis. -/
theorem cast_add_mid (v : S2x512.Idx → α) (h : S2x512.ShapeCasts S2x1x512) (b : Fin 2) (s : Fin 512) :
    shapeCast S2x1x512 v h (ix3 b (0 : Fin 1) s) = v (ix2 b s) :=
  shapeCast_apply v h _ _ (by rw [Shape.rowMajor_val_three, Shape.rowMajor_val_two]; show b.val * 512 + s.val = (b.val * 1 + 0) * 512 + s.val; omega)

/-- A per-query-row value broadcast over the key columns. -/
theorem bcast_rows (v : S2x512x1.Idx → α) (h : S2x512x1.Broadcasts S2x512x512) (b : Fin 2) (r s : Fin 512) :
    broadcastTo S2x512x512 v h (ix3 b r s) = v (ix3 b r (0 : Fin 1)) :=
  broadcastTo_apply v h _ _ (fun a => match a with
    | ⟨0, _⟩ => by show b.val = if (2 : Nat) = 1 then 0 else b.val; rw [if_neg (by decide)]
    | ⟨1, _⟩ => by show r.val = if (512 : Nat) = 1 then 0 else r.val; rw [if_neg (by decide)]
    | ⟨2, _⟩ => by show (0 : Nat) = if (1 : Nat) = 1 then 0 else s.val; rw [if_pos rfl])

/-- A per-key-column value broadcast over the query rows. -/
theorem bcast_cols (v : S2x1x512.Idx → α) (h : S2x1x512.Broadcasts S2x512x512) (b : Fin 2) (r s : Fin 512) :
    broadcastTo S2x512x512 v h (ix3 b r s) = v (ix3 b (0 : Fin 1) s) :=
  broadcastTo_apply v h _ _ (fun a => match a with
    | ⟨0, _⟩ => by show b.val = if (2 : Nat) = 1 then 0 else b.val; rw [if_neg (by decide)]
    | ⟨1, _⟩ => by show (0 : Nat) = if (1 : Nat) = 1 then 0 else r.val; rw [if_pos rfl]
    | ⟨2, _⟩ => by show s.val = if (512 : Nat) = 1 then 0 else s.val; rw [if_neg (by decide)])

/-- The sum along the key axis, at row `r` of cloud `b`: the sum of the row's 512 entries. -/
theorem lane_sum (src : FVec Ideal S2x512x512 .f32) (h : S2x512x512.Reduces [2] S2x512) (hφ : FKind.Formats .f32)
    (hacc : (0x00000000#32 : BitVec 32) = 0x00000000#32) (b : Fin 2) (r : Fin 512) :
    multiReduction .add [2] S2x512 src 0x00000000#32 h hφ hacc (ix2 b r) = ∑ s : Fin 512, src (ix3 b r s) := by
  refine (Ideal.multiReduction_add_single src 0x00000000#32 h hφ hacc (ix2 b r)).trans ?_
  refine Finset.sum_congr rfl fun s _ => congrArg src ?_
  funext a
  match a with
  | ⟨0, _⟩ => rfl
  | ⟨1, _⟩ => rfl
  | ⟨2, _⟩ => rfl

end Cert.KernelIdeal.Hand

end
-- ==== Proof.Spec.lean ====
/-
  The density of a particle cloud, as one function of the position array and the per-cloud point counts.

  For points i and j of cloud b: the squared distance is the sum over the three coordinates of the squared differences;
  the distance is its square root where it is positive and zero otherwise; with q the distance over the support radius,
  the weight is the cubic spline  1 − 6q² + 6q³  for q ≤ 1/2  and  2(1 − q)³  beyond, scaled by the normalising constant
  and cut off at the support radius. Point i's density is the sum over j of the weights of the pairs both of whose
  points are valid (index below the cloud's count), and zero for an invalid i. Every constant is kept as the binary
  word the programs print, so that the same word on both sides is never evaluated.
-/
import Idealize.ShloMosaic.PureOps.Ideal
import Idealize.ShloMosaic.Lib.ValueIdx

noncomputable section

open scoped BigOperators

namespace Cert.Density

open Idealize.ShloMosaic Idealize.ShloMosaic.ValueIdx

/-- An extended real. -/
abbrev E : Type := Ideal .f32

abbrev zero : E := FloatOps.ofBits (F := Ideal) .f32 0x00000000#32
abbrev one : E := FloatOps.ofBits (F := Ideal) .f32 0x3F800000#32
abbrev half : E := FloatOps.ofBits (F := Ideal) .f32 0x3F000000#32
abbrev two : E := FloatOps.ofBits (F := Ideal) .f32 0x40000000#32
abbrev six : E := FloatOps.ofBits (F := Ideal) .f32 0x40C00000#32
/-- The spline's normalising constant 8 / (π h³), as the programs print it. -/
abbrev sigma : E := FloatOps.ofBits (F := Ideal) .f32 0x451F27AA#32
/-- The support radius h, as the programs print it. -/
abbrev radius : E := FloatOps.ofBits (F := Ideal) .f32 0x3DCCCCCD#32

/-- The squared distance of two points given by their three coordinates. -/
def sqd (p q : Fin 3 → E) : E := zero + ∑ k : Fin 3, (p k - q k) * (p k - q k)

/-- The distance from the squared distance: the square root where it is positive, zero where it is not. -/
def dist (s : E) : E :=
  Scalar.select (FloatOps.cmpf (F := Ideal) .ogt s zero)
    (Ideal.sqrt (Scalar.select (FloatOps.cmpf (F := Ideal) .ogt s zero) s one)) zero

/-- The cubic spline in q = distance / radius. -/
def spline (q : E) : E :=
  Scalar.select (FloatOps.cmpf (F := Ideal) .ole q half)
    ((one - six * (q * q)) + six * ((q * q) * q))
    (two * (((one - q) * (one - q)) * (one - q)))

/-- The weight of a pair at distance r: the scaled spline, cut off at the support radius. -/
def weight (r : E) : E :=
  (sigma * spline (Ideal.div r radius)) * FloatOps.uitofp (F := Ideal) .f32 (FloatOps.cmpf (F := Ideal) .olt r radius)

/-- The weight of the pair of points with coordinates `p` and `q`. -/
def pairW (p q : Fin 3 → E) : E := weight (dist (sqd p q))

/-- Whether point `i` of cloud `b` is valid, as 1 or 0: its index is below the cloud's count (signed comparison). -/
def valid (n : IVec (⟨1, ![2]⟩ : Shape) 32) (b : Fin 2) (i : Fin 4096) : E :=
  FloatOps.uitofp (F := Ideal) .f32 (IntOp.cmpi .slt (BitVec.ofNat 32 i.val) (n (ix1 b)))

/-- The density array: for cloud b and point i, the sum over j of the pair weights masked by both points' validity,
    masked once more by i's. -/
def G (x : FVec Ideal (⟨3, ![2, 4096, 3]⟩ : Shape) .f32) (n : IVec (⟨1, ![2]⟩ : Shape) 32) :
    FVec Ideal (⟨2, ![2, 4096]⟩ : Shape) .f32 := fun idx =>
  (zero + ∑ j : Fin 4096,
      (pairW (fun k => x (ix3 (idx 0) (idx 1) k)) (fun k => x (ix3 (idx 0) j k)) * valid n (idx 0) (idx 1)) * valid n (idx 0) j)
    * valid n (idx 0) (idx 1)

end Cert.Density

end
-- ==== Proof.KAlg.lean ====
/-
  The kernel's arithmetic against the density function's, on the extended reals.

  The kernel sums the three squared coordinate differences pairwise and clamps the sum at zero from below; a sum of
  squares is never negative (a square of an infinity is +∞), so the clamp does nothing and the sum is the squared
  distance. It spells 6q² as (6q)q and 6q³ as ((6q)q)q, and (1 − q)³ with the other grouping: products associate
  and commute. It multiplies the distance by the reciprocal of the support radius where the density function divides
  by the radius: for a nonzero real radius these agree at every extended real. Its cut-off bit is widened and read
  signed where the density function reads it unsigned: a bit is 0 or 1 either way.
-/
import proofs.«112487_j2559800508972_1_alg».proof.Proof.Spec

noncomputable section

open scoped BigOperators

namespace Cert.Density

open Idealize.ShloMosaic

theorem zero_eq : (zero : E) = (0 : EReal) := by
  show Ideal.ofBits .f32 0x00000000#32 = 0
  simp [Ideal.ofBits, Ideal.ieee]

/-- The support radius, as the real the printed word denotes. -/
theorem radius_eq : (radius : E) = ((13421773 / 134217728 : ℝ) : EReal) := by
  show Ideal.ofBits .f32 0x3DCCCCCD#32 = _
  simp [Ideal.ofBits, Ideal.ieee, -EReal.coe_mul]; norm_num

theorem sq_nonneg' (a : EReal) : 0 ≤ a * a := by
  induction a using EReal.rec with
  | bot => rw [EReal.bot_mul_bot]; exact le_top
  | coe x => rw [← EReal.coe_mul]; exact EReal.coe_nonneg.mpr (mul_self_nonneg x)
  | top => rw [EReal.top_mul_top]; exact le_top

/-- The kernel's squared distance from the three coordinate differences. -/
def ksq (dx dy dz : E) : E := max ((dx * dx + dy * dy) + dz * dz) zero

theorem ksq_eq (p q : Fin 3 → E) : ksq (p 0 - q 0) (p 1 - q 1) (p 2 - q 2) = sqd p q := by
  unfold ksq sqd
  rw [Fin.sum_univ_three, zero_eq, zero_add, max_eq_left]
  exact add_nonneg (add_nonneg (sq_nonneg' _) (sq_nonneg' _)) (sq_nonneg' _)

/-- The kernel's spelling of the spline. -/
def kspline (q : E) : E :=
  Scalar.select (FloatOps.cmpf (F := Ideal) .ole q half)
    ((one - (six * q) * q) + ((six * q) * q) * q)
    (two * ((one - q) * ((one - q) * (one - q))))

theorem kspline_eq (q : E) : kspline q = spline q := by
  unfold kspline spline
  rw [mul_assoc six q q, mul_assoc six (q * q) q, mul_comm (one - q) ((one - q) * (one - q))]

/-- A bit widened to a word and read signed is the bit read unsigned. -/
theorem bit_signed (b : BitVec 1) :
    FloatOps.sitofp (F := Ideal) .f32 (b.setWidth 32) = FloatOps.uitofp (F := Ideal) .f32 b := by
  have h : b = 0#1 ∨ b = 1#1 := by
    by_cases hb : b = 1#1
    · exact .inr hb
    · exact .inl (ValueIdx.eq_zero_of_ne_one hb)
  rcases h with rfl | rfl
  · show (((0#1 : BitVec 1).setWidth 32).toInt : ℝ) = (((0#1 : BitVec 1).toNat : ℝ) : EReal)
    norm_num
  · show (((1#1 : BitVec 1).setWidth 32).toInt : ℝ) = (((1#1 : BitVec 1).toNat : ℝ) : EReal)
    norm_num

/-- The kernel's weight of a pair at distance r, with `κ` the constant it multiplies the distance by. -/
def kweight (κ r : E) : E :=
  (sigma * kspline (r * κ))
    * FloatOps.sitofp (F := Ideal) .f32 ((FloatOps.cmpf (F := Ideal) .olt r radius).setWidth 32)

/-- When that constant is the reciprocal of the support radius, the kernel's weight is the density function's. -/
theorem kweight_eq (κ r : E) (hκ : κ = ((134217728 / 13421773 : ℝ) : EReal)) : kweight κ r = weight r := by
  unfold kweight weight
  rw [kspline_eq, bit_signed, hκ]
  congr 3
  rw [radius_eq, Ideal.div_coe (by norm_num : (13421773 / 134217728 : ℝ) ≠ 0)]
  norm_num

end Cert.Density

end
-- ==== Proof.KVal.lean ====
/-
  The body's arithmetic at an index, on the extended reals: the distance block at (cloud b, query row r, key column s)
  is the distance of query point r and key point s; the accumulate term at (b, r) is what the accumulator held plus the
  sum over the tile's 512 key columns of the pair weights masked by the two validity blocks.
-/
import proofs.«112487_j2559800508972_1_alg».proof.Proof.KLay
import proofs.«112487_j2559800508972_1_alg».proof.Proof.KAlg
import proofs.«112487_j2559800508972_1_alg».proof.Proof.Gen.KernelIdeal.Skeleton
import Idealize.ShloMosaic.PureOps.IdealRules

set_option maxRecDepth 16384

noncomputable section

open scoped BigOperators

namespace Cert.KernelIdeal.Hand

open Cert.KernelIdeal Cert.KernelIdeal.Gen Cert.Density Idealize.ShloMosaic Idealize.ShloMosaic.ValueIdx

/-- The constant the kernel multiplies the distance by denotes the reciprocal of the support radius. -/
theorem kappa_eq : Named.named (F := Ideal) Cert.KernelIdeal.κ "inv_radius" (φ := .f32) 0x41200000#32 = ((134217728 / 13421773 : ℝ) : EReal) :=
  IdealRules.named_const.ideal_named_scalar _ _ _ _ rfl

/-- The square root of a vector, at an index. -/
theorem sqrt_at {s : Shape} {φ : FTy} (v : FVec Ideal s φ) (i : s.Idx) : sqrt v i = FloatOps.sqrt (v i) := rfl

/-- The distance block: entry (b, r, s) is the distance of query point r and key point s of cloud b. -/
theorem pay3_apply (x0 x1 : Vec Ideal S2x512x3 .f32) (b : Fin 2) (r s : Fin 512) :
    k0_pay3 (F := Ideal) x0 x1 (ix3 b r s) = Cert.Density.dist (sqd (fun k => x0 (ix3 b r k)) (fun k => x1 (ix3 b s k))) := by
  rw [← ksq_eq]
  unfold k0_pay3 Cert.Density.dist ksq
  simp only [select_apply, sqrt_at, cmpf_apply, broadcast_apply, maximumf_apply, addf_apply, mulf_apply, subf_apply,
    bcast_rows, bcast_cols, cast_add_mid, cast_drop_last, slice_col0, slice_col1, slice_col2]
  rfl

/-- The accumulate term at (b, r): what the accumulator held there, plus the tile's masked row sum. -/
theorem pay6_apply (v41 v42 : FVec Ideal S2x512x512 .f32) (x2 x3 xs : Vec Ideal S2x512 .f32) (b : Fin 2) (r : Fin 512) :
    k0_pay6 (F := Ideal) v41 v42 x2 x3 xs (ix2 b r)
      = xs (ix2 b r) + ∑ s : Fin 512, (kweight (v42 (ix3 b r s)) (v41 (ix3 b r s)) * x2 (ix2 b r)) * x3 (ix2 b s) := by
  unfold k0_pay6 k0_pay5 kweight kspline
  simp only [shapeCast_self, addf_apply]
  refine congrArg (xs (ix2 b r) + ·) ((lane_sum _ _ _ _ b r).trans (Finset.sum_congr rfl fun s _ => ?_))
  simp only [mulf_apply, subf_apply, addf_apply, select_apply, cmpf_apply, broadcast_apply, sitofp_apply, extui_apply,
    bcast_rows, bcast_cols, cast_add_mid, cast_add_last]

/-- With the distance block and the named constant in place: the tile's masked row sum of the pair weights. -/
theorem acc_step (x0 x1 : Vec Ideal S2x512x3 .f32) (x2 x3 xs : Vec Ideal S2x512 .f32) (b : Fin 2) (r : Fin 512) :
    k0_pay6 (F := Ideal) (k0_pay3 x0 x1) (k0_pay4 (F := Ideal)) x2 x3 xs (ix2 b r)
      = xs (ix2 b r) + ∑ s : Fin 512,
          (pairW (fun k => x0 (ix3 b r k)) (fun k => x1 (ix3 b s k)) * x2 (ix2 b r)) * x3 (ix2 b s) := by
  rw [pay6_apply]
  refine congrArg (xs (ix2 b r) + ·) (Finset.sum_congr rfl fun s _ => ?_)
  rw [pay3_apply, show k0_pay4 (F := Ideal) (ix3 b r s) = Named.named (F := Ideal) Cert.KernelIdeal.κ "inv_radius" (φ := .f32) 0x41200000#32 from rfl,
    kweight_eq _ _ kappa_eq]
  rfl

/-- The zero block the reset stores is zero everywhere. -/
theorem pay2_apply (j : S2x512.Idx) : k0_pay2 (F := Ideal) j = zero := by
  unfold k0_pay2
  simp only [shapeCast_self, broadcast_apply]

/-- The output store at (b, r): the accumulator there times the query row's validity. -/
theorem pay1_apply (x2 acc : Vec Ideal S2x512 .f32) (j : S2x512.Idx) :
    k0_pay1 (F := Ideal) (k0_pay5 x2) acc j = acc j * x2 j := by
  unfold k0_pay1 k0_pay5
  simp only [shapeCast_self, mulf_apply]

end Cert.KernelIdeal.Hand

end
-- ==== Proof.KFold.lean ====
/-
  The accumulation over a query tile's eight key tiles, on the extended reals. Each point adds its tile's masked row
  sums to the accumulator, which the first of the eight resets to zero; so after the point of key tile k the
  accumulator at (cloud b, query row r) is zero plus the sum over key tiles 0 … k of those tiles' sums, and at key tile 7
  the output block is that total times the query row's validity.
-/
import proofs.«112487_j2559800508972_1_alg».proof.Proof.KPay
import proofs.«112487_j2559800508972_1_alg».proof.Proof.KVal

set_option maxRecDepth 16384
set_option maxHeartbeats 2000000

noncomputable section

open scoped BigOperators

namespace Cert.KernelIdeal.Hand

open Cert.KernelIdeal Cert.KernelIdeal.Gen Cert.Density
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The masked row sum of the tile at position `n`, at an index (cloud, query row) of the block. -/
def tileSum (c : Dev nD) (n : ℕ) (i : S2x512.Idx) : EReal :=
  if h : n < cfg0.N then
    ∑ s : Fin 512,
      (pairW (fun k => blkQ m c ⟨n, h⟩ (ix3 (i 0 : Fin 2) (i 1 : Fin 512) k)) (fun k => blkK m c ⟨n, h⟩ (ix3 (i 0 : Fin 2) s k))
          * blkVq m c ⟨n, h⟩ (ix2 (i 0 : Fin 2) (i 1 : Fin 512)))
        * blkVk m c ⟨n, h⟩ (ix2 (i 0 : Fin 2) s)
  else 0

/-- One point's effect on the accumulator. -/
def stepAt (c : Dev nD) (n : ℕ) (h : n < cfg0.N) (acc : Vec Ideal S2x512 .f32) : Vec Ideal S2x512 .f32 :=
  k0_pay6 (F := Ideal) (k0_pay3 (blkQ m c ⟨n, h⟩) (blkK m c ⟨n, h⟩)) (k0_pay4 (F := Ideal)) (blkVq m c ⟨n, h⟩) (blkVk m c ⟨n, h⟩) acc

theorem stepAt_apply (c : Dev nD) (n : ℕ) (h : n < cfg0.N) (acc : Vec Ideal S2x512 .f32) (i : S2x512.Idx) :
    stepAt m c n h acc i = acc i + tileSum m c n i := by
  obtain ⟨b, r, rfl⟩ : ∃ (b : Fin 2) (r : Fin 512), i = ix2 b r := ⟨i 0, i 1, eq_ix2 i⟩
  unfold stepAt tileSum
  rw [dif_pos h, acc_step]

theorem snd_first (c : Dev nD) (n : ℕ) (h : n < cfg0.N) (h0 : n % 8 = 0) :
    (outsAt m c n h).2 = stepAt m c n h (k0_pay2 (F := Ideal)) := by
  show (outsAt m c (⟨n, h⟩ : Fin cfg0.N).val (⟨n, h⟩ : Fin cfg0.N).isLt).2 = _
  rw [outsAt_A m c ⟨n, h⟩ h0 (by show ¬n % 8 = 7; omega)]
  dsimp only
  exact soutA_eq (F := Ideal) ..

theorem snd_step (c : Dev nD) (n : ℕ) (h : n + 1 < cfg0.N) (h0 : ¬(n + 1) % 8 = 0) :
    (outsAt m c (n + 1) h).2 = stepAt m c (n + 1) h (outsAt m c n (Nat.lt_of_succ_lt h)).2 := by
  show (outsAt m c (⟨n + 1, h⟩ : Fin cfg0.N).val (⟨n + 1, h⟩ : Fin cfg0.N).isLt).2 = _
  by_cases h7 : (n + 1) % 8 = 7
  · rw [outsAt_C m c ⟨n + 1, h⟩ h0 h7]
    dsimp only
    exact soutC_eq (F := Ideal) ..
  · rw [outsAt_B m c ⟨n + 1, h⟩ h0 h7]
    dsimp only
    exact soutB_eq (F := Ideal) ..

/-- After the point at position `t` the accumulator is zero plus the sums of the tiles of its run so far. -/
theorem snd_fold (c : Dev nD) (t : Fin cfg0.N) (i : S2x512.Idx) :
    (outsAt m c t.val t.isLt).2 i = zero + ∑ s ∈ Finset.range (t.val % 8 + 1), tileSum m c (8 * (t.val / 8) + s) i := by
  have h' : 8 * (t.val / 8) + t.val % 8 < cfg0.N := by rw [Nat.div_add_mod]; exact t.isLt
  rw [Pipeline.eq_accAt_of_mod (fun n h => (outsAt m c n h).2) 8 (fun n h => stepAt m c n h (k0_pay2 (F := Ideal)))
    (fun n h acc => stepAt m c n h acc) (snd_first m c) (snd_step m c) (by decide) t.val t.isLt h']
  exact Pipeline.accAt_add_apply _ _ (fun _ => zero) (tileSum m c) (8 * (t.val / 8)) 7
    (fun h i => by rw [stepAt_apply, pay2_apply]) (fun n h acc i _ _ => stepAt_apply m c n h acc i)
    (t.val % 8) (by omega) h' i

/-- At key tile 7 the output block is the accumulator times the query rows' validity. -/
theorem fst_last (c : Dev nD) (t : Fin cfg0.N) (h7 : t.val % 8 = 7) (i : S2x512.Idx) :
    (outsAt m c t.val t.isLt).1 i = (outsAt m c t.val t.isLt).2 i * blkVq m c t i := by
  have h0 : ¬t.val % 8 = 0 := by omega
  rw [outsAt_C m c t h0 h7]
  dsimp only
  rw [outC_eq, soutC_eq, pay1_apply]

end Cert.KernelIdeal.Hand

end
-- ==== Proof.KHost.lean ====
/-
  The validity mask as the region finds it. The seven host lines before the call compare the index row 0 … 4095 with each
  cloud's point count and convert the bit to 1 or 0: entry (b, i) of the mask is the validity of point i of cloud b.
-/
import proofs.«112487_j2559800508972_1_alg».proof.Proof.KRuns
import proofs.«112487_j2559800508972_1_alg».proof.Proof.Spec
import Idealize.ShloMosaic.Lib.StableHlo.Run
import Idealize.ShloMosaic.Lib.Pipeline.Value

set_option maxRecDepth 16384
set_option maxHeartbeats 2000000

noncomputable section

open scoped BigOperators

namespace Cert.KernelIdeal.Hand

open Cert.KernelIdeal Cert.KernelIdeal.Gen Cert.Density
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The mask, as the host lines' term of the point counts. -/
theorem V_mask (c : Dev nD) :
    (V m c main_v6 : S2x4096.Idx → EReal)
      = uitofp (F := Ideal) .f32 (cmpi .slt
          (broadcastInDim S2x4096 ![0, 1] bcast_S1x4096_S2x4096_0_1 (broadcastInDim S1x4096 ![1] bcast_S4096_S1x4096_1 (iotaInDim S4096 32 0)))
          (broadcastInDim S2x4096 ![0, 1] bcast_S2x1_S2x4096_0_1 (broadcastInDim S2x1 ![0] bcast_S2_S2x1_0 (m ((c : Thread nD τ).loc main_arg1))))) := by
  dsimp only [V, hostOps0]
  after_results

/-- The index row, broadcast to both clouds, at (b, i): the index i as a word. -/
theorem iota_at (b : Fin 2) (i : Fin 4096) :
    broadcastInDim S2x4096 ![0, 1] bcast_S1x4096_S2x4096_0_1 (broadcastInDim S1x4096 ![1] bcast_S4096_S1x4096_1 (iotaInDim S4096 32 0)) (ix2 b i)
      = BitVec.ofNat 32 i.val := by
  refine (broadcastInDim_apply _ bcast_S1x4096_S2x4096_0_1 _ (ix2 b i) (ix2 (0 : Fin 1) i) (fun a => match a with
    | ⟨0, _⟩ => by show (0 : Nat) = if (1 : Nat) = 1 then 0 else b.val; rw [if_pos rfl]
    | ⟨1, _⟩ => by show i.val = if (4096 : Nat) = 1 then 0 else i.val; rw [if_neg (by decide)])).trans ?_
  refine (broadcastInDim_apply _ bcast_S4096_S1x4096_1 _ (ix2 (0 : Fin 1) i) (ix1 i) (fun a => match a with
    | ⟨0, _⟩ => by show i.val = if (4096 : Nat) = 1 then 0 else i.val; rw [if_neg (by decide)])).trans ?_
  rfl

/-- The point counts, broadcast along the points, at (b, i): cloud b's count. -/
theorem count_at (n : S2.Idx → BitVec 32) (b : Fin 2) (i : Fin 4096) :
    broadcastInDim S2x4096 ![0, 1] bcast_S2x1_S2x4096_0_1 (broadcastInDim S2x1 ![0] bcast_S2_S2x1_0 n) (ix2 b i) = n (ix1 b) := by
  refine (broadcastInDim_apply _ bcast_S2x1_S2x4096_0_1 _ (ix2 b i) (ix2 b (0 : Fin 1)) (fun a => match a with
    | ⟨0, _⟩ => by show b.val = if (2 : Nat) = 1 then 0 else b.val; rw [if_neg (by decide)]
    | ⟨1, _⟩ => by show (0 : Nat) = if (1 : Nat) = 1 then 0 else i.val; rw [if_pos rfl])).trans ?_
  exact broadcastInDim_apply _ bcast_S2_S2x1_0 n (ix2 b (0 : Fin 1)) (ix1 b) (fun a => match a with
    | ⟨0, _⟩ => by show b.val = if (2 : Nat) = 1 then 0 else b.val; rw [if_neg (by decide)])

/-- Entry (b, i) of the mask is the validity of point i of cloud b. -/
theorem V_mask_apply (c : Dev nD) (b : Fin 2) (i : Fin 4096) :
    V m c main_v6 (ix2 b i) = valid (m ((c : Thread nD τ).loc main_arg1)) b i := by
  rw [V_mask]
  show FloatOps.uitofp (F := Ideal) .f32 (IntOp.cmpi .slt _ _) = _
  rw [iota_at, count_at]
  rfl

end Cert.KernelIdeal.Hand

end
-- ==== Proof.KData.lean ====
/-
  The proof data of the call: the arrays as the region finds them; each input window's buffer at its block after
  every point (the body only reads them); the output's at what the accumulation gives; the accumulator carried in the
  invariant. The positions and the validity mask are each split half and half between their two windows.
-/
import proofs.«112487_j2559800508972_1_alg».proof.Proof.KOuts

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]

/-- Each input window's current buffer holds its block at every point, fetched there or not: where it is not
    fetched the block index has not moved since the last fetch. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at point `t`, the inputs' buffers already at their blocks, -/
def bodyPre (c : Dev nD) (t : Fin cfg0.N) : sProp 𝕄 :=
  iprop((dats m 0 c).Φ t.castSucc ∗ (dats m 0 c).owesAt () t.castSucc
    ∗ owns (c : Thread nD τ) (ms_0 t) fullShare (blkQ m c t)
    ∗ owns (c : Thread nD τ) (ms_1 t) fullShare (blkK m c t)
    ∗ owns (c : Thread nD τ) (ms_2 t) fullShare (blkVq m c t)
    ∗ owns (c : Thread nD τ) (ms_3 t) fullShare (blkVk m c t)
    ∗ (∃ d, owns (c : Thread nD τ) (ms_4 t) fullShare ((dats m 0 c).before 4 t d)))

/-- and what it returns off key tile 7 (the output block handed back as found), -/
def bodyPostIdle (c : Dev nD) (t : Fin cfg0.N) : sProp 𝕄 :=
  iprop(owns (c : Thread nD τ) scM fullShare ((outsAt m c t.val t.isLt).2) ∗ (dats m 0 c).owesAt () t.castSucc
    ∗ owns (c : Thread nD τ) (ms_0 t) fullShare (blkQ m c t)
    ∗ owns (c : Thread nD τ) (ms_1 t) fullShare (blkK m c t)
    ∗ owns (c : Thread nD τ) (ms_2 t) fullShare (blkVq m c t)
    ∗ owns (c : Thread nD τ) (ms_3 t) fullShare (blkVk m c t)
    ∗ (∃ d, owns (c : Thread nD τ) (ms_4 t) fullShare ((dats m 0 c).before 4 t d)))

/-- and at key tile 7 (the output block stored). -/
def bodyPostLast (c : Dev nD) (t : Fin cfg0.N) : sProp 𝕄 :=
  iprop(owns (c : Thread nD τ) scM fullShare ((outsAt m c t.val t.isLt).2) ∗ (dats m 0 c).owesAt () t.castSucc
    ∗ owns (c : Thread nD τ) (ms_0 t) fullShare (blkQ m c t)
    ∗ owns (c : Thread nD τ) (ms_1 t) fullShare (blkK m c t)
    ∗ owns (c : Thread nD τ) (ms_2 t) fullShare (blkVq m c t)
    ∗ owns (c : Thread nD τ) (ms_3 t) fullShare (blkVk m c t)
    ∗ owns (c : Thread nD τ) (ms_4 t) fullShare ((outsAt m c t.val t.isLt).1))

end Cert.KernelIdeal.Hand

end
-- ==== Proof.KBodyA.lean ====
/-
  The body obligation at a point of key tile 0: whatever the accumulator held, it ends at this tile's row sums.
-/
import proofs.«112487_j2559800508972_1_alg».proof.Proof.KData

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_A (c : Dev nD) (t : Fin cfg0.N) (h0 : t.val % 8 = 0) (h7 : ¬t.val % 8 = 7) :
    bodyPre m c t ⊢ wp frame (wpE (defs₀ (F := F)) Variants.none c none) Set.univ (bodyAt0 t) (fun _ => bodyPostIdle m c t) := by
  unfold bodyPre bodyPostIdle bodyAt0
  rw [outsAt_A m c t h0 h7]
  unfold soutA; (try dsimp only)
  have hpre : (dats m 0 c).Φ t.castSucc ⊢ (iprop(∃ d, owns (c : Thread nD τ) scM fullShare d) : sProp 𝕄) := by
    rw [PhiS_castSucc m c t]
    by_cases hz : t.val = 0
    · rw [PhiS_zero m c _ _ hz]
    · rw [PhiS_pos m c _ _ hz]; iintro HS; iexists _; iexact HS
  iintro ⟨HΦ, Ho, H0, H1, H2, H3, ⟨%d4, H4⟩⟩
  ihave HS := hpre $$ HΦ
  iapply ((kernelRunA c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h7 ((hcondLast t).mp h)) (blkQ m c t) (blkK m c t) (blkVq m c t) (blkVk m c t)).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS]
  · unfold owns; iexists _; isplitr
    swap; · iexact HS
    ipureintro; exact View.read_writes_of_cover _ _ _ _ _ (scoverA c _ (ms_0 t) (hs_0 t) (ms_1 t) (hs_1 t) (ms_2 t) (hs_2 t) (ms_3 t) (hs_3 t) (ms_4 t) (hs_4 t) scM _ _ _ _ _ _ _)
  isplitl [Ho]; · iexact Ho
  isplitl [H0]; · iexact H0
  isplitl [H1]; · iexact H1
  isplitl [H2]; · iexact H2
  isplitl [H3]; · iexact H3
  iexists _; iexact H4

end Cert.KernelIdeal.Hand

end
-- ==== Proof.KBodyB.lean ====
/-
  The body obligation at a point of a middle key tile: the accumulator goes from what the point before left to that
  plus this tile's row sums.
-/
import proofs.«112487_j2559800508972_1_alg».proof.Proof.KData

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_B (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPostIdle m c t) := by
  have hz : t.val ≠ 0 := fun h => h0 (by rw [h])
  unfold bodyPre bodyPostIdle bodyAt0
  rw [outsAt_B m c t h0 h7]
  unfold soutB; (try dsimp only)
  rw [PhiS_castSucc m c t, PhiS_pos m c _ _ hz]
  iintro ⟨HS, Ho, H0, H1, H2, H3, ⟨%d4, H4⟩⟩
  iapply ((kernelRunB c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h7 ((hcondLast t).mp h)) (blkQ m c t) (blkK m c t) (blkVq m c t) (blkVk m c t) _).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS]
  · unfold owns; iexists _; isplitr
    swap; · iexact HS
    ipureintro; exact View.read_writes_of_cover _ _ _ _ _ (scoverB c _ (ms_0 t) (hs_0 t) (ms_1 t) (hs_1 t) (ms_2 t) (hs_2 t) (ms_3 t) (hs_3 t) (ms_4 t) (hs_4 t) scM _ _ _ _ _ _ _ _)
  isplitl [Ho]; · iexact Ho
  isplitl [H0]; · iexact H0
  isplitl [H1]; · iexact H1
  isplitl [H2]; · iexact H2
  isplitl [H3]; · iexact H3
  iexists _; iexact H4

end Cert.KernelIdeal.Hand

end
-- ==== Proof.KBodyC.lean ====
/-
  The body obligation at a point of key tile 7: the accumulator takes this tile's row sums too, and the output block
  is stored from it.
-/
import proofs.«112487_j2559800508972_1_alg».proof.Proof.KData

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_C (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPostLast m c t) := by
  have hz : t.val ≠ 0 := fun h => h0 (by rw [h])
  unfold bodyPre bodyPostLast bodyAt0
  rw [outsAt_C m c t h0 h7]
  unfold outC soutC; (try dsimp only)
  rw [PhiS_castSucc m c t, PhiS_pos m c _ _ hz]
  iintro ⟨HS, Ho, H0, H1, H2, H3, ⟨%d4, H4⟩⟩
  iapply ((kernelRunC c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h7) (blkQ m c t) (blkK m c t) (blkVq m c t) (blkVk m c t) _).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS]
  · unfold owns; iexists _; isplitr
    swap; · iexact HS
    ipureintro; exact View.read_writes_of_cover _ _ _ _ _ (scoverC c _ (ms_0 t) (hs_0 t) (ms_1 t) (hs_1 t) (ms_2 t) (hs_2 t) (ms_3 t) (hs_3 t) (ms_4 t) (hs_4 t) scM _ _ _ _ _ _ _ _)
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverC c _ (ms_0 t) (hs_0 t) (ms_1 t) (hs_1 t) (ms_2 t) (hs_2 t) (ms_3 t) (hs_3 t) (ms_4 t) (hs_4 t) scM _ _ _ _ _ _ _ _)

end Cert.KernelIdeal.Hand

end
-- ==== Proof.KObl.lean ====
/-
  The body obligation at every point, from the three kinds of point; and the invariant's two ends: the launch hands
  the region the accumulator at anything, and after the last point its contents are forgotten.
-/
import proofs.«112487_j2559800508972_1_alg».proof.Proof.KBodyA
import proofs.«112487_j2559800508972_1_alg».proof.Proof.KBodyB
import proofs.«112487_j2559800508972_1_alg».proof.Proof.KBodyC

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the rule hands the body is what the three kinds of point start from: each input buffer at its block. -/
theorem pre_entails (c : Dev nD) (t : Fin cfg0.N) :
    iprop((dats m 0 c).Φ t.castSucc ∗ (dats m 0 c).owesAt () t.castSucc
      ∗ (∃ d, owns (c : Thread nD τ) (ms_0 t) fullShare ((dats m 0 c).before 0 t d))
      ∗ (∃ d, owns (c : Thread nD τ) (ms_1 t) fullShare ((dats m 0 c).before 1 t d))
      ∗ (∃ d, owns (c : Thread nD τ) (ms_2 t) fullShare ((dats m 0 c).before 2 t d))
      ∗ (∃ d, owns (c : Thread nD τ) (ms_3 t) fullShare ((dats m 0 c).before 3 t d))
      ∗ (∃ d, owns (c : Thread nD τ) (ms_4 t) fullShare ((dats m 0 c).before 4 t d)))
      ⊢ bodyPre m c t := by
  unfold bodyPre
  simp only [before_0, before_1, before_2, before_3]
  iintro ⟨HΦ, Ho, ⟨%d0, H0⟩, ⟨%d1, H1⟩, ⟨%d2, H2⟩, ⟨%d3, H3⟩, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- Off key tile 7 the output window is idle and not written back: handing its block back as found is what the
    rule asks. -/
theorem post_idle (c : Dev nD) (t : Fin cfg0.N) (h7 : ¬t.val % 8 = 7) :
    bodyPostIdle m c t ⊢ (iprop((dats m 0 c).Φ t.succ ∗ (dats m 0 c).owesAt () t.succ
      ∗ (dats m 0 c).leavesExact 0 t ∗ (dats m 0 c).leavesExact 1 t ∗ (dats m 0 c).leavesExact 2 t
      ∗ (dats m 0 c).leavesExact 3 t ∗ (dats m 0 c).leavesExact 4 t) : sProp 𝕄) := by
  unfold bodyPostIdle
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t (fun h => h7 ((hcondLast t).mp h))) (noFlush_4 t (fun h => h7 ((hcondLast t).mp h)))]
  iintro ⟨HS, Ho, H0, H1, H2, H3, H4⟩
  isplitl [HS]; · iexact HS
  isplitl [Ho]; · iexact Ho
  isplitl [H0]; · iexact H0
  isplitl [H1]; · iexact H1
  isplitl [H2]; · iexact H2
  isplitl [H3]; · iexact H3
  iexact H4

/-- At key tile 7 the output window is live: its block is what the point stored. -/
theorem post_last (c : Dev nD) (t : Fin cfg0.N) (h7 : t.val % 8 = 7) :
    bodyPostLast m c t ⊢ (iprop((dats m 0 c).Φ t.succ ∗ (dats m 0 c).owesAt () t.succ
      ∗ (dats m 0 c).leavesExact 0 t ∗ (dats m 0 c).leavesExact 1 t ∗ (dats m 0 c).leavesExact 2 t
      ∗ (dats m 0 c).leavesExact 3 t ∗ (dats m 0 c).leavesExact 4 t) : sProp 𝕄) := by
  unfold bodyPostLast
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t ((hcondLast t).mpr h7)], after_4]
  iintro ⟨HS, Ho, H0, H1, H2, H3, H4⟩
  isplitl [HS]; · iexact HS
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  refine (pre_entails m c t).trans ?_
  by_cases h0 : t.val % 8 = 0
  · have h7 : ¬t.val % 8 = 7 := by omega
    exact (sound_A m c t h0 h7).trans (wp_mono _ _ _ fun _ => post_idle m c t h7)
  · by_cases h7 : t.val % 8 = 7
    · exact (sound_C m c t h0 h7).trans (wp_mono _ _ _ fun _ => post_last m c t h7)
    · exact (sound_B m c t h0 h7).trans (wp_mono _ _ _ fun _ => post_idle m c t h7)

/-- The launch hands the region the accumulator at anything: the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest0_eq]
  simp only [scM, owns_whole]; try exact Idealize.SL.BI.Entails.refl _

/-- After the last point the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_eq]
  simp only [scM, owns_whole]
  iintro HS; iexists _; iexact HS

end Cert.KernelIdeal.Hand

end
-- ==== Proof.KLaunch.lean ====
/-
  The whole call. The positions array is read by the query-side and the key-side window, and so is the validity mask:
  the full holding of each array splits into two halves, one per window (both only read). With that, the launch rule
  for windows that share arrays gives the run: every weakly fair execution terminates without a fault, every array
  of the call ends at what the proof data compute, and every buffer the call bypasses is as the region found it.
-/
import proofs.«112487_j2559800508972_1_alg».proof.Proof.KObl

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers behind the windows' arrays, listed: the positions, the validity mask, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v6) ↦{fullShare} V m c main_v6)
          ∗ (((c : Thread nD τ).loc main_v7) ↦{fullShare} V m c main_v7)) := by
  unfold Pipeline.arrBufs
  exact bigSep_eq_bigSepL_of_eq [main_arg0, main_v6, main_v7] (by decide) (by decide) _

theorem set0 : (cfg0.win 0).arr.view.set = Finset.univ := (arr_whole0 0).set_eq_univ
theorem set1 : (cfg0.win 1).arr.view.set = Finset.univ := (arr_whole0 1).set_eq_univ
theorem set2 : (cfg0.win 2).arr.view.set = Finset.univ := (arr_whole0 2).set_eq_univ
theorem set3 : (cfg0.win 3).arr.view.set = Finset.univ := (arr_whole0 3).set_eq_univ
theorem set4 : (cfg0.win 4).arr.view.set = Finset.univ := (arr_whole0 4).set_eq_univ

/-- At entry each array holds the region-entry contents. -/
theorem arrAt_zero (c : Dev nD) (w : Fin cfg0.W) : (dats m 0 c).arrAt w 0 = V m c (Pipeline.arrRef spec0 w) := A_eq m c w

theorem share_0 (c : Dev nD) : (dats m 0 c).share 0 = fullShare.left := by
  unfold Dat.share; rw [show (cfg0.win 0).isOut = false from rfl, if_neg Bool.false_ne_true]; dsimp only [dats]
theorem share_1 (c : Dev nD) : (dats m 0 c).share 1 = fullShare.right := by
  unfold Dat.share; rw [show (cfg0.win 1).isOut = false from rfl, if_neg Bool.false_ne_true]; dsimp only [dats]
theorem share_2 (c : Dev nD) : (dats m 0 c).share 2 = fullShare.left := by
  unfold Dat.share; rw [show (cfg0.win 2).isOut = false from rfl, if_neg Bool.false_ne_true]; dsimp only [dats]
theorem share_3 (c : Dev nD) : (dats m 0 c).share 3 = fullShare.right := by
  unfold Dat.share; rw [show (cfg0.win 3).isOut = false from rfl, if_neg Bool.false_ne_true]; dsimp only [dats]
theorem share_4 (c : Dev nD) : (dats m 0 c).share 4 = fullShare := by
  unfold Dat.share; rw [show (cfg0.win 4).isOut = true from rfl, if_pos rfl]

/-- Each window's holding at entry, by name. -/
theorem hold0 (c : Dev nD) :
    ((cfg0.win 0).arr.view.loc (c.tc : Thread nD τ) ↦[(cfg0.win 0).arr.view.set]{(dats m 0 c).share 0} (dats m 0 c).arrAt 0 0 : sProp 𝕄)
      = (((c : Thread nD τ).loc main_arg0) ↦{fullShare.left} V m c main_arg0) := by
  rw [set0, share_0, arrAt_zero]
theorem hold1 (c : Dev nD) :
    ((cfg0.win 1).arr.view.loc (c.tc : Thread nD τ) ↦[(cfg0.win 1).arr.view.set]{(dats m 0 c).share 1} (dats m 0 c).arrAt 1 0 : sProp 𝕄)
      = (((c : Thread nD τ).loc main_arg0) ↦{fullShare.right} V m c main_arg0) := by
  rw [set1, share_1, arrAt_zero]
theorem hold2 (c : Dev nD) :
    ((cfg0.win 2).arr.view.loc (c.tc : Thread nD τ) ↦[(cfg0.win 2).arr.view.set]{(dats m 0 c).share 2} (dats m 0 c).arrAt 2 0 : sProp 𝕄)
      = (((c : Thread nD τ).loc main_v6) ↦{fullShare.left} V m c main_v6) := by
  rw [set2, share_2, arrAt_zero]
theorem hold3 (c : Dev nD) :
    ((cfg0.win 3).arr.view.loc (c.tc : Thread nD τ) ↦[(cfg0.win 3).arr.view.set]{(dats m 0 c).share 3} (dats m 0 c).arrAt 3 0 : sProp 𝕄)
      = (((c : Thread nD τ).loc main_v6) ↦{fullShare.right} V m c main_v6) := by
  rw [set3, share_3, arrAt_zero]
theorem hold4 (c : Dev nD) :
    ((cfg0.win 4).arr.view.loc (c.tc : Thread nD τ) ↦[(cfg0.win 4).arr.view.set]{(dats m 0 c).share 4} (dats m 0 c).arrAt 4 0 : sProp 𝕄)
      = (((c : Thread nD τ).loc main_v7) ↦{fullShare} V m c main_v7) := by
  rw [set4, share_4, arrAt_zero]

/-- The five windows' holdings at entry, listed: each of the two shared arrays by halves, the result outright. -/
theorem arrays_eq5 (c : Dev nD) :
    ((dats m 0 c).arrays ((dats m 0 c).arrAt · 0) : sProp 𝕄)
      = iprop((((c : Thread nD τ).loc main_arg0) ↦{fullShare.left} V m c main_arg0) ∗ (((c : Thread nD τ).loc main_arg0) ↦{fullShare.right} V m c main_arg0)
          ∗ (((c : Thread nD τ).loc main_v6) ↦{fullShare.left} V m c main_v6) ∗ (((c : Thread nD τ).loc main_v6) ↦{fullShare.right} V m c main_v6)
          ∗ (((c : Thread nD τ).loc main_v7) ↦{fullShare} V m c main_v7)) := by
  unfold Dat.arrays
  rw [bigSep_W0]
  beta_reduce
  rw [hold0, hold1, hold2, hold3, hold4]

/-- The buffers behind the windows' arrays, each whole at the region-entry contents, are the five windows' holdings. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq5]
  refine (BIClass.sep_mono (pointsTo_share (PosShare.mem_left_op_right fullShare)).1
    (BIClass.sep_mono (pointsTo_share (PosShare.mem_left_op_right fullShare)).1 .rfl)).trans ?_
  iintro ⟨⟨Ha0, Ha1⟩, ⟨Hv0, Hv1⟩, Ho⟩
  isplitl [Ha0]; · iexact Ha0
  isplitl [Ha1]; · iexact Ha1
  isplitl [Hv0]; · iexact Hv0
  isplitl [Hv1]; · iexact Hv1
  iexact Ho

set_option backward.isDefEq.respectTransparency.types false in
/-- The run of @main: termination without a fault, every array of the call at `arrAt … N`, every bypassed unscoped
    buffer at its region-entry contents. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      iintro ⟨-, Hr⟩
      iapply (hin m c); iexact Hr)
    (hout := fun c => by
      iintro H
      isplitr; · iempintro
      iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Hand

end
-- ==== Proof.KClaim.lean ====
/-
  What the run says of the arrays the claims name. The seven host lines before the call write only their own results,
  so the region finds both arguments as launched; the positions are an input of the call and end as the region found
  them; the point counts bypass the call and are read back unchanged; the result array ends at what the write-backs
  leave.
-/
import proofs.«112487_j2559800508972_1_alg».proof.Proof.KLaunch

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The run with the three arrays the claims speak of: the result at what the write-backs leave, both arguments
    unchanged. -/
theorem run_named : θ_run defs (onTc (τ := τ) (main (F := F))) ⟨m, fun _ => 0, ρ⟩ (fun r => ∀ c : Dev nD,
      r.2.mem ((c.tc : Thread nD τ).loc main_v7) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 4,
      ((h c).1 0).trans (((dats m 0 c).arrAt_in 0 rfl _).trans ((A_eq m c 0).trans (V_main_arg0 m c))),
      ((h c).2 main_arg1 (Pipeline.mem_restRefs_of main_arg1 rfl (by decide))).trans (V_main_arg1 m c)⟩) (run_main m ρ)

/-- The frame: termination without a fault, both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Hand

end
-- ==== Proof.KFinal.lean ====
/-
  From blocks to the array. A point's query-side blocks are rows  qi·512 … qi·512 + 511  of the arrays and its key-side
  blocks rows  ki·512 … ki·512 + 511,  where the point is number  8·qi + ki.  So a tile's masked row sum is the sum of
  the masked pair weights over the tile's 512 key points, the eight tiles of a query tile together range over all 4096
  key points once each, and the block written back at key tile 7 is the density function's block of rows. The blocks
  written back fill the result array.
-/
import proofs.«112487_j2559800508972_1_alg».proof.Proof.KFold
import proofs.«112487_j2559800508972_1_alg».proof.Proof.KHost
import proofs.«112487_j2559800508972_1_alg».proof.Proof.KClaim

set_option maxRecDepth 16384
set_option maxHeartbeats 2000000

noncomputable section

open scoped BigOperators

namespace Cert.KernelIdeal.Hand

open Cert.KernelIdeal Cert.KernelIdeal.Gen Cert.Density
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The printed index maps over the grid: the query-side windows and the result move with  t / 8,  the key-side
    windows with  t % 8,  on the point axis; every other block index is zero. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val / 8 :=
  (by decide +kernel : ∀ t : Fin grid0.N, _)

/-- Row `r` of tile `q`, as a row of the array. -/
def glob (q : Fin 8) (r : Fin 512) : Fin 4096 := ⟨q.val * 512 + r.val, by have := q.isLt; have := r.isLt; omega⟩

/-- The query tile and the key tile of a point. -/
def qi (t : Fin cfg0.N) : Fin 8 := ⟨t.val / 8, by have := t.isLt; have : cfg0.N = 64 := N_0; omega⟩
def ki (t : Fin cfg0.N) : Fin 8 := ⟨t.val % 8, by omega⟩

theorem blkQ_apply (c : Dev nD) (t : Fin cfg0.N) (b : Fin 2) (r : Fin 512) (k : Fin 3) :
    blkQ m c t (ix3 b r k) = V m c main_arg0 (ix3 b (glob (qi t) r) k) := by
  obtain ⟨e0, e1, e2, -⟩ := idx_facts t
  show V m c main_arg0 (((cfg0.win 0).blk t).view.emb (ix3 b r k)) = _
  refine congrArg (V m c main_arg0) (funext fun a => Fin.ext ?_)
  match a with
  | ⟨0, _⟩ => show win0_0.index t (0 : Fin 3) * 2 + 1 * b.val = b.val; omega
  | ⟨1, _⟩ => show win0_0.index t (1 : Fin 3) * 512 + 1 * r.val = t.val / 8 * 512 + r.val; omega
  | ⟨2, _⟩ => show win0_0.index t (2 : Fin 3) * 3 + 1 * k.val = k.val; omega

theorem blkK_apply (c : Dev nD) (t : Fin cfg0.N) (b : Fin 2) (s : Fin 512) (k : Fin 3) :
    blkK m c t (ix3 b s k) = V m c main_arg0 (ix3 b (glob (ki t) s) k) := by
  obtain ⟨-, -, -, e0, e1, e2, -⟩ := idx_facts t
  show V m c main_arg0 (((cfg0.win 1).blk t).view.emb (ix3 b s k)) = _
  refine congrArg (V m c main_arg0) (funext fun a => Fin.ext ?_)
  match a with
  | ⟨0, _⟩ => show win0_1.index t (0 : Fin 3) * 2 + 1 * b.val = b.val; omega
  | ⟨1, _⟩ => show win0_1.index t (1 : Fin 3) * 512 + 1 * s.val = t.val % 8 * 512 + s.val; omega
  | ⟨2, _⟩ => show win0_1.index t (2 : Fin 3) * 3 + 1 * k.val = k.val; omega

theorem blkVq_apply (c : Dev nD) (t : Fin cfg0.N) (b : Fin 2) (r : Fin 512) :
    blkVq m c t (ix2 b r) = V m c main_v6 (ix2 b (glob (qi t) r)) := by
  obtain ⟨-, -, -, -, -, -, e0, e1, -⟩ := idx_facts t
  show V m c main_v6 (((cfg0.win 2).blk t).view.emb (ix2 b r)) = _
  refine congrArg (V m c main_v6) (funext fun a => Fin.ext ?_)
  match a with
  | ⟨0, _⟩ => show win0_2.index t (0 : Fin 2) * 2 + 1 * b.val = b.val; omega
  | ⟨1, _⟩ => show win0_2.index t (1 : Fin 2) * 512 + 1 * r.val = t.val / 8 * 512 + r.val; omega

theorem blkVk_apply (c : Dev nD) (t : Fin cfg0.N) (b : Fin 2) (s : Fin 512) :
    blkVk m c t (ix2 b s) = V m c main_v6 (ix2 b (glob (ki t) s)) := by
  obtain ⟨-, -, -, -, -, -, -, -, e0, e1, -⟩ := idx_facts t
  show V m c main_v6 (((cfg0.win 3).blk t).view.emb (ix2 b s)) = _
  refine congrArg (V m c main_v6) (funext fun a => Fin.ext ?_)
  match a with
  | ⟨0, _⟩ => show win0_3.index t (0 : Fin 2) * 2 + 1 * b.val = b.val; omega
  | ⟨1, _⟩ => show win0_3.index t (1 : Fin 2) * 512 + 1 * s.val = t.val % 8 * 512 + s.val; omega

/-- The masked weight of the pair (i, j) of cloud b, from the arrays as launched. -/
def term (c : Dev nD) (b : Fin 2) (i j : Fin 4096) : EReal :=
  (pairW (fun k => m ((c : Thread nD τ).loc main_arg0) (ix3 b i k)) (fun k => m ((c : Thread nD τ).loc main_arg0) (ix3 b j k))
      * valid (m ((c : Thread nD τ).loc main_arg1)) b i)
    * valid (m ((c : Thread nD τ).loc main_arg1)) b j

/-- A tile's masked row sum, in array terms. -/
theorem tileSum_eq (c : Dev nD) (t : Fin cfg0.N) (b : Fin 2) (r : Fin 512) :
    tileSum m c t.val (ix2 b r) = ∑ s : Fin 512, term m c b (glob (qi t) r) (glob (ki t) s) := by
  unfold tileSum term
  rw [dif_pos t.isLt]
  refine Finset.sum_congr rfl fun s _ => ?_
  show (pairW (fun k => blkQ m c t (ix3 b r k)) (fun k => blkK m c t (ix3 b s k)) * blkVq m c t (ix2 b r)) * blkVk m c t (ix2 b s) = _
  simp only [blkQ_apply, blkK_apply, blkVq_apply, blkVk_apply]
  rw [V_main_arg0 m c, V_mask_apply m c b (glob (qi t) r), V_mask_apply m c b (glob (ki t) s)]

/-- Eight tiles of 512 key points are the 4096 key points, once each. -/
theorem sum_tiles (f : Fin 4096 → EReal) : ∑ k : Fin 8, ∑ s : Fin 512, f (glob k s) = ∑ j : Fin 4096, f j := by
  rw [← Fintype.sum_prod_type (f := fun p : Fin 8 × Fin 512 => f (glob p.1 p.2))]
  refine Fintype.sum_equiv (finProdFinEquiv : Fin 8 × Fin 512 ≃ Fin 4096) _ _ fun p => ?_
  refine congrArg f (Fin.ext ?_)
  show p.1.val * 512 + p.2.val = p.2.val + 512 * p.1.val
  omega

/-- The point at key tile `k` of the query tile of `t`. -/
def sib (t : Fin cfg0.N) (k : Fin 8) : Fin cfg0.N := ⟨8 * (t.val / 8) + k.val, by have := t.isLt; have : cfg0.N = 64 := N_0; have := k.isLt; omega⟩

theorem qi_sib (t : Fin cfg0.N) (k : Fin 8) : qi (sib t k) = qi t := Fin.ext (by show (8 * (t.val / 8) + k.val) / 8 = t.val / 8; have := k.isLt; omega)
theorem ki_sib (t : Fin cfg0.N) (k : Fin 8) : ki (sib t k) = k := Fin.ext (by show (8 * (t.val / 8) + k.val) % 8 = k.val; have := k.isLt; omega)

/-- WHAT THE POINT AT KEY TILE 7 WRITES BACK is its block of rows of the density function. -/
theorem flushed_eq (c : Dev nD) (t : Fin cfg0.N) (h7 : t.val % 8 = 7) :
    (dats m 0 c).flushed 4 t = ((cfg0.win 4).blk t).view.read (Elt Ideal) (G (m ((c : Thread nD τ).loc main_arg0)) (m ((c : Thread nD τ).loc main_arg1))) := by
  show (cfg0.win 4).cut (grid0.coords t) ((dats m 0 c).after 4 t) = _
  rw [after_4]
  funext j
  obtain ⟨b, r, rfl⟩ : ∃ (b : Fin 2) (r : Fin 512), j = ix2 b r := ⟨j 0, j 1, eq_ix2 j⟩
  obtain ⟨-, -, -, -, -, -, -, -, -, -, e0, e1⟩ := idx_facts t
  have hemb : ((cfg0.win 4).blk t).view.emb (ix2 b r) = ix2 b (glob (qi t) r) := by
    funext a; apply Fin.ext
    match a with
    | ⟨0, _⟩ => show win0_4.index t (0 : Fin 2) * 2 + 1 * b.val = b.val; omega
    | ⟨1, _⟩ => show win0_4.index t (1 : Fin 2) * 512 + 1 * r.val = t.val / 8 * 512 + r.val; omega
  show (outsAt m c t.val t.isLt).1 (ix2 b r) = G _ _ (((cfg0.win 4).blk t).view.emb (ix2 b r))
  rw [hemb, fst_last m c t h7, snd_fold, blkVq_apply, V_mask_apply, h7]
  show (zero + ∑ s ∈ Finset.range 8, tileSum m c (8 * (t.val / 8) + s) (ix2 b r)) * _ = (zero + ∑ j : Fin 4096, term m c b (glob (qi t) r) j) * _
  congr 2
  rw [← sum_tiles, ← Fin.sum_univ_eq_sum_range (fun s => tileSum m c (8 * (t.val / 8) + s) (ix2 b r)) 8]
  refine Finset.sum_congr rfl fun k _ => ?_
  have := tileSum_eq m c (sib t k) b r
  rw [qi_sib, ki_sib] at this
  exact this

/-- An index of the result array is in the block of point `t` iff each coordinate is in the block's range. -/
theorem mem_blk (t : Fin cfg0.N) (i : S2x4096.Idx) :
    i ∈ ((cfg0.win 4).blk t).view.set ↔ ∀ a : Fin 2, win0_4.index t a * S2x512.size a ≤ (i a).val ∧ (i a).val < win0_4.index t a * S2x512.size a + S2x512.size a := by
  show i ∈ ((View.whole main_v7).slice (win0_4.rect t)).set ↔ _
  rw [View.set_slice_whole, Rect.mem_set_unit]
  exact Iff.rfl

/-- Every row of the result is in the block some point at key tile 7 writes back. -/
theorem cover (i : S2x4096.Idx) : ∃ t : Fin cfg0.N, (cfg0.win 4).flush t = true ∧ i ∈ ((cfg0.win 4).blk t).view.set := by
  have hi0 : (i 0).val < 2 := (i 0).isLt
  have hi1 : (i 1).val < 4096 := (i 1).isLt
  have hN : cfg0.N = 64 := N_0
  refine ⟨⟨8 * ((i 1).val / 512) + 7, by omega⟩, (flush0_4 _).mpr (by show (8 * ((i 1).val / 512) + 7) % 8 = 7; omega), ?_⟩
  rw [mem_blk]
  obtain ⟨-, -, -, -, -, -, -, -, -, -, e0, e1⟩ := idx_facts ⟨8 * ((i 1).val / 512) + 7, by omega⟩
  intro a
  match a with
  | ⟨0, _⟩ =>
    show win0_4.index _ (0 : Fin 2) * 2 ≤ (i 0).val ∧ (i 0).val < win0_4.index _ (0 : Fin 2) * 2 + 2
    rw [e0]; omega
  | ⟨1, _⟩ =>
    show win0_4.index _ (1 : Fin 2) * 512 ≤ (i 1).val ∧ (i 1).val < win0_4.index _ (1 : Fin 2) * 512 + 512
    rw [e1]; show (8 * ((i 1).val / 512) + 7) / 8 * 512 ≤ (i 1).val ∧ (i 1).val < (8 * ((i 1).val / 512) + 7) / 8 * 512 + 512; omega

/-- THE RESULT ARRAY after the run is the density function of the arrays as launched. -/
theorem final (c : Dev nD) :
    (dats m 0 c).arrAt 4 cfg0.N = G (m ((c : Thread nD τ).loc main_arg0)) (m ((c : Thread nD τ).loc main_arg1)) :=
  (dats m 0 c).arrAt_eq_of_cover 4 _ (fun t hf => flushed_eq m c t ((flush0_4 t).mp hf)) cover

/-- The kernel's run, read: the result is the density function of the arguments, which end unchanged. -/
theorem run : θ_run defs (onTc (τ := τ) (main (F := Ideal))) ⟨m, fun _ => 0, ρ⟩ (fun r => ∀ c : Dev nD,
      r.2.mem ((c.tc : Thread nD τ).loc main_v7) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_named m ρ)

end Cert.KernelIdeal.Hand

end
-- ==== Proof.RefIsG.lean ====
/-
  The reference's stages, read at an index, are the density function.

  Stage by stage: the difference of the two broadcast position arrays, squared and summed over the three coordinates, is the
  squared distance of points r and j of cloud b; the two selects around the square root are the distance; the spline of the
  distance over the support radius, scaled and cut off at the radius, is the pair's weight; the comparison of the index row
  with the cloud's count, converted to 1 or 0 and broadcast along either axis, is the validity of r or of j; the sum over j
  of the twice-masked weights, masked once more by r's validity, is the density at (b, r).
-/
import proofs.«112487_j2559800508972_1_alg».proof.Proof.Gen.ReferenceIdeal.Read
import proofs.«112487_j2559800508972_1_alg».proof.Proof.Spec

noncomputable section

open Idealize.ShloMosaic Idealize.ShloMosaic.ValueIdx
open scoped BigOperators

namespace Cert.ReferenceIdeal.RefValue

open Cert.ReferenceIdeal Cert.ReferenceIdeal.Read Cert.Density

/-- The squared distance: stage 6 at (b, r, j) is the sum over the three coordinates of the squared differences of
    points r and j of cloud b. -/
theorem sqd_eq (x0 : (⟨S2x4096x3, .f32⟩ : BufTy).Contents (Elt Ideal)) (b : Fin 2) (r j : Fin 4096) :
    val_main_v6 (F := Ideal) x0 (ix3 b r j) = sqd (fun k => x0 (ix3 b r k)) (fun k => x0 (ix3 b j k)) := by
  rw [val_main_v6_apply]
  unfold sqd
  refine congrArg₂ (· + ·) rfl (Finset.sum_congr rfl fun k _ => ?_)
  rw [val_main_v5_apply, val_main_v4_apply, val_main_v2_apply, val_main_v0_apply, val_main_v3_apply, val_main_v1_apply]
  have e1 : idx_main_v0 (idx_main_v2 (idx_main_v6 (ix3 b r j) k)) = ix3 b r k :=
    funext fun a => Fin.ext (by match a with | ⟨0, _⟩ => rfl | ⟨1, _⟩ => rfl | ⟨2, _⟩ => rfl)
  have e2 : idx_main_v1 (idx_main_v3 (idx_main_v6 (ix3 b r j) k)) = ix3 b j k :=
    funext fun a => Fin.ext (by match a with | ⟨0, _⟩ => rfl | ⟨1, _⟩ => rfl | ⟨2, _⟩ => rfl)
  rw [e1, e2]
  rfl

/-- The distance: the two selects around the square root, over any squared distance. -/
theorem dist_eq (x0 : (⟨S2x4096x3, .f32⟩ : BufTy).Contents (Elt Ideal)) (i : S2x4096x4096.Idx) :
    val_main_v13 (F := Ideal) x0 i = dist (val_main_v6 (F := Ideal) x0 i) := by
  rw [val_main_v13_apply, val_main_v12_apply, val_main_v11_apply, val_main_cst_2_apply, val_main_v10_apply,
    val_main_v9_apply, val_main_v8_apply, val_main_v7_apply, val_main_cst_0_apply, val_main_call0_v1_apply,
    val_main_call0_v0_apply, val_main_cst_1_apply, val_main_call1_v1_apply, val_main_call1_v0_apply,
    val_main_cst_3_apply]
  generalize val_main_v6 (F := Ideal) x0 i = s
  rfl

/-- The distance over the support radius. -/
theorem ratio_eq (x0 : (⟨S2x4096x3, .f32⟩ : BufTy).Contents (Elt Ideal)) (i : S2x4096x4096.Idx) :
    val_main_v15 (F := Ideal) x0 i = Ideal.div (val_main_v13 (F := Ideal) x0 i) radius := by
  rw [val_main_v15_apply, val_main_v14_apply, val_main_cst_4_apply]
  rfl

/-- The cubic spline of the ratio: both branches and the comparison with one half. -/
theorem spline_eq (x0 : (⟨S2x4096x3, .f32⟩ : BufTy).Contents (Elt Ideal)) (i : S2x4096x4096.Idx) :
    val_main_v34 (F := Ideal) x0 i = spline (val_main_v15 (F := Ideal) x0 i) := by
  rw [val_main_v34_apply, val_main_v17_apply, val_main_v16_apply, val_main_cst_5_apply,
    val_main_v27_apply, val_main_v22_apply, val_main_v21_apply, val_main_cst_7_apply, val_main_v20_apply,
    val_main_v19_apply, val_main_cst_6_apply, val_main_v18_apply,
    val_main_v26_apply, val_main_v25_apply, val_main_cst_8_apply, val_main_v24_apply, val_main_v23_apply,
    val_main_v33_apply, val_main_v32_apply, val_main_cst_10_apply, val_main_v31_apply, val_main_v30_apply,
    val_main_v29_apply, val_main_v28_apply, val_main_cst_9_apply]
  generalize val_main_v15 (F := Ideal) x0 i = q
  rfl

/-- The weight of a pair: the scaled spline, cut off at the support radius. -/
theorem weight_eq (x0 : (⟨S2x4096x3, .f32⟩ : BufTy).Contents (Elt Ideal)) (i : S2x4096x4096.Idx) :
    val_main_v40 (F := Ideal) x0 i = weight (val_main_v13 (F := Ideal) x0 i) := by
  rw [val_main_v40_apply, val_main_v36_apply, val_main_v35_apply, val_main_cst_11_apply, spline_eq, ratio_eq,
    val_main_v39_apply, val_main_v38_apply, val_main_v37_apply, val_main_cst_12_apply]
  generalize val_main_v13 (F := Ideal) x0 i = d
  rfl

/-- The weight of the pair of points r and j of cloud b. -/
theorem pairW_eq (x0 : (⟨S2x4096x3, .f32⟩ : BufTy).Contents (Elt Ideal)) (b : Fin 2) (r j : Fin 4096) :
    val_main_v40 (F := Ideal) x0 (ix3 b r j) = pairW (fun k => x0 (ix3 b r k)) (fun k => x0 (ix3 b j k)) := by
  rw [weight_eq, dist_eq, sqd_eq]
  rfl

/-- The validity bit of point r of cloud b: its index against the cloud's count. -/
theorem bit_eq (x1 : (⟨S2, .i32⟩ : BufTy).Contents (Elt Ideal)) (b : Fin 2) (r : Fin 4096) :
    val_main_v46 (F := Ideal) x1 (ix2 b r) = IntOp.cmpi .slt (BitVec.ofNat 32 r.val) (x1 (ix1 b)) := by
  rw [val_main_v46_apply, val_main_v44_apply, val_main_v42_apply, val_main_v41_apply, val_main_v45_apply,
    val_main_v43_apply]
  have e : idx_main_v43 (idx_main_v45 (ix2 b r)) = ix1 b :=
    funext fun a => Fin.ext (by match a with | ⟨0, _⟩ => rfl)
  rw [e]

/-- The validity of the row's point, as stage 56 reads it. -/
theorem valid_row (x1 : (⟨S2, .i32⟩ : BufTy).Contents (Elt Ideal)) (b : Fin 2) (r : Fin 4096) :
    val_main_v56 (F := Ideal) x1 (ix2 b r) = valid x1 b r := by
  rw [val_main_v56_apply, bit_eq]
  rfl

/-- The validity of the row's point, broadcast along the columns. -/
theorem valid_left (x1 : (⟨S2, .i32⟩ : BufTy).Contents (Elt Ideal)) (b : Fin 2) (r j : Fin 4096) :
    val_main_v49 (F := Ideal) x1 (ix3 b r j) = valid x1 b r := by
  rw [val_main_v49_apply, val_main_v48_apply, val_main_v47_apply]
  have e : idx_main_v47 (idx_main_v49 (ix3 b r j)) = ix2 b r :=
    funext fun a => Fin.ext (by match a with | ⟨0, _⟩ => rfl | ⟨1, _⟩ => rfl)
  rw [e, bit_eq]
  rfl

/-- The validity of the column's point, broadcast along the rows. -/
theorem valid_right (x1 : (⟨S2, .i32⟩ : BufTy).Contents (Elt Ideal)) (b : Fin 2) (r j : Fin 4096) :
    val_main_v53 (F := Ideal) x1 (ix3 b r j) = valid x1 b j := by
  rw [val_main_v53_apply, val_main_v52_apply, val_main_v51_apply]
  have e : idx_main_v51 (idx_main_v53 (ix3 b r j)) = ix2 b j :=
    funext fun a => Fin.ext (by match a with | ⟨0, _⟩ => rfl | ⟨1, _⟩ => rfl)
  rw [e, bit_eq]
  rfl

/-- The reference's last stage is the density function. -/
theorem ref_is_G (x0 : (⟨Cert.ReferenceIdeal.S2x4096x3, .f32⟩ : BufTy).Contents (Elt Ideal))
    (x1 : (⟨Cert.ReferenceIdeal.S2, .i32⟩ : BufTy).Contents (Elt Ideal)) :
    Cert.ReferenceIdeal.Read.val_main_v57 (F := Ideal) x0 x1 = Cert.Density.G x0 x1 := by
  funext i
  obtain ⟨b, r, rfl⟩ : ∃ (b : Fin 2) (r : Fin 4096), i = ix2 b r := ⟨i 0, i 1, eq_ix2 i⟩
  rw [val_main_v57_apply, val_main_v55_apply, valid_row]
  show _ = (zero + ∑ j : Fin 4096,
      (pairW (fun k => x0 (ix3 b r k)) (fun k => x0 (ix3 b j k)) * valid x1 b r) * valid x1 b j) * valid x1 b r
  refine congrArg (· * valid x1 b r) (congrArg₂ (· + ·) rfl (Finset.sum_congr rfl fun j _ => ?_))
  have e : idx_main_v55 (ix2 b r) j = ix3 b r j :=
    funext fun a => Fin.ext (by match a with | ⟨0, _⟩ => rfl | ⟨1, _⟩ => rfl | ⟨2, _⟩ => rfl)
  rw [e, val_main_v54_apply, val_main_v50_apply, pairW_eq, valid_left, valid_right]
  rfl

end Cert.ReferenceIdeal.RefValue

end
-- ==== Proof.lean ====
/-
  The density of a particle cloud, computed by a tiled kernel and by the direct reference, is one function of the
  positions and the point counts.

  The kernel walks an 8 × 8 grid of (query tile, key tile) points. At each it forms, for the tile's 512 query points and
  512 key points of both clouds, the pairwise distance, the cubic-spline weight of distance over support radius (cut off
  at the radius), masks it by the validity of both points, sums over the key points and adds the row sums to an
  accumulator, which key tile 0 resets and key tile 7 stores, masked by the query points' validity. The reference forms
  all 4096 × 4096 pairs of each cloud at once and sums over the key point.

  The kernel multiplies the distance by the constant 10 where the reference divides by the support radius, the binary
  number nearest 0.1; the certificate's table names that constant as the exact reciprocal of that binary number, so on
  the extended reals both are the distance over the radius. Nothing else separates the two: the kernel's clamp of a
  sum of squares at zero does nothing, products regroup, and eight tiles of 512 key points are the 4096 key points once
  each. No step uses the finiteness of the inputs.

  The three runs: the two kernel programs (word level and idealized) by the launch rule for a call whose windows share
  arrays — the positions and the mask are each read through a query-side and a key-side window, each holding half —,
  the body obligation from the three kinds of point (reset, accumulate, store); the reference by its generated run.
-/
import proofs.«112487_j2559800508972_1_alg».proof.Defs
import proofs.«112487_j2559800508972_1_alg».proof.Proof.Gen.Kernel
import proofs.«112487_j2559800508972_1_alg».proof.Proof.Gen.KernelIdeal
import proofs.«112487_j2559800508972_1_alg».proof.Proof.Gen.ReferenceIdeal
import proofs.«112487_j2559800508972_1_alg».proof.Proof.Gen.Pre_finite_inputs
import proofs.«112487_j2559800508972_1_alg».proof.Proof.Gen.ReferenceIdeal.Run
import proofs.«112487_j2559800508972_1_alg».proof.Proof.Gen.ReferenceIdeal.Read
import proofs.«112487_j2559800508972_1_alg».proof.Proof.BClaim
import proofs.«112487_j2559800508972_1_alg».proof.Proof.KFinal
import proofs.«112487_j2559800508972_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the constant 10 is named the reciprocal of the printed support radius. -/
theorem preserves : Cert.preserves_Kernel_KernelIdeal :=
  IdealRules.named_const.statement Cert.KernelIdeal.κ "inv_radius" .f32 0x41200000#32 ((134217728 / 13421773 : ℝ) : EReal) rfl

/-- Both idealized programs end with the density function of the arguments in their result. -/
theorem algebraic : Cert.algebraic_KernelIdeal_ReferenceIdeal := by
  intro m ρ m' ρ' _ hagree
  refine ⟨fun c => Cert.Density.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v57_eq, Cert.ReferenceIdeal.RefValue.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
